-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S128x128 : Shape := ⟨2, ![128, 128]⟩
abbrev S1x128 : Shape := ⟨2, ![1, 128]⟩
abbrev S100000x64 : Shape := ⟨2, ![100000, 64]⟩
abbrev S2000x64 : Shape := ⟨2, ![2000, 64]⟩

abbrev nBuf : Space → Nat
  | .hbm => 102
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S128x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S128, .f32⟩
  | .hbm, ⟨99, _⟩ => ⟨S1x128, .f32⟩
  | .hbm, ⟨100, _⟩ => ⟨S100000x64, .f32⟩
  | .hbm, ⟨101, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72_0 : Ref sig .tc := ⟨.hbm, 100, rfl⟩
abbrev main_v72_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S128x64_S128x64_S128x128_d1 : Shape.Concatenates [S128x64, S128x64] S128x128 1
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S64_S64_S128_d0 : Shape.Concatenates [S64, S64] S128 0
  slices_S2000x128_o0_0_S2000x64 : S2000x128.Slices ![0, 0] S2000x64
  inb_S2000x64_S2000x64_0_0 : ∀ a, (![0, 0] : Fin 2 → Nat) a + S2000x64.size a ≤ S2000x64.size a
  h_S2000x64 : 0 < S2000x64.numel
  slices_S2000x128_o0_64_S2000x64 : S2000x128.Slices ![0, 64] S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72_0) S2000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v72_1) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its two results named. The program is eight stretches in order — host operations,
  the first product's region, host operations, the hidden product's region, host operations, the bias-and-split
  region — and the contents of every buffer at each boundary between stretches are a fold from the launch memory:
  a stretch of host operations rewrites the buffers its operations write, a region rewrites its output arrays with
  what its write-backs leave. Every weakly fair execution terminates without a fault in a state whose every unscoped
  buffer holds the last boundary's contents; read at the two result buffers and at the nine arguments, that is the
  statement below (the arguments walk back through the fold to the launch memory, since nothing writes them).
-/
import proofs.«152899_j68436008894840_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; both result arrays end at the
    last boundary's contents and the argument arrays as launched. -/
theorem run : θ_run defs (onTc (τ := τ) (main (F := F))) ⟨m, fun _ => 0, ρ⟩ (fun r => ∀ c : Dev nD,
      r.2.mem ((c.tc : Thread nD τ).loc main_v72_0) = W8 m ρ c (Proc.devRef .tc main_v72_0)
      ∧ r.2.mem ((c.tc : Thread nD τ).loc main_v72_1) = W8 m ρ c (Proc.devRef .tc main_v72_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ Gen.L Gen.lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gen.R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v72_0 (by decide)),
       h c _ (mem_uc main_v72_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Run

end
-- ==== Proof.FirstProduct.lean ====
/-
  The first product, block by block. The first kernel region cuts the node features `x` (100000 × 256) into 50 blocks
  of 2000 rows, multiplies each block by the whole weight matrix `W1` (256 × 128) into a zero accumulator, and writes
  the 2000 × 128 result back as the same rows of its output. Row `r` of block `t` is row `2000 t + r` of `x`, and an entry
  of a matrix product depends on one row of the left factor only, so the 50 blocks written back are the 50 row blocks
  of the one product `x · W1`: entry `(r, j)` is `∑ k, x (r, k) · W1 (k, j)`. The blocks tile the output, so after the
  region the output array is that product. On the extended reals a change of float format is the identity, so the
  kernel's bf16 copies of the factors are the factors.
-/
import proofs.«152899_j68436008894840_1_alg».proof.Proof.Gen.KernelIdeal.Frame
import proofs.«152899_j68436008894840_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.FirstProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Row `y 0`, column `k` of a block of 2000 rows of `x`. -/
abbrev rowAt (y : S2000x128.Idx) (k : Fin 256) : S2000x256.Idx := fun a => match a with
  | ⟨0, _⟩ => ⟨(y 0).val, (y 0).isLt⟩
  | ⟨1, _⟩ => ⟨k.val, k.isLt⟩
/-- Row `k`, column `y 1` of the weight matrix. -/
abbrev colAt (y : S2000x128.Idx) (k : Fin 256) : S256x128.Idx := fun a => match a with
  | ⟨0, _⟩ => ⟨k.val, k.isLt⟩
  | ⟨1, _⟩ => ⟨(y 1).val, (y 1).isLt⟩

local notation "D0" => dot_S2000x256_S256x128_S2000x128_1_0_0_1_n_n

theorem lhs0 (i : S2000x128.Idx) (q : (D0).contr.Idx) : ((D0).lhsIdx i q 0).val = (i 0).val := by
  unfold DotDims.lhsIdx
  rw [dif_neg (show ¬(0 : Fin S2000x256.rank) ∈ (D0).lhsBatch by decide), dif_pos (show (0 : Fin S2000x256.rank) ∈ (D0).lhsNonContracting by decide)]
  rfl
theorem lhs1 (i : S2000x128.Idx) (q : (D0).contr.Idx) : ((D0).lhsIdx i q 1).val = (q ⟨0, by decide⟩).val :=
  (D0).lhsIdx_val_of_single rfl i q
theorem rhs0 (i : S2000x128.Idx) (q : (D0).contr.Idx) : ((D0).rhsIdx i q 0).val = (q ⟨0, by decide⟩).val :=
  (D0).rhsIdx_val_of_single rfl i q
theorem rhs1 (i : S2000x128.Idx) (q : (D0).contr.Idx) : ((D0).rhsIdx i q 1).val = (i 1).val := by
  unfold DotDims.rhsIdx
  rw [dif_neg (show ¬(1 : Fin S256x128.rank) ∈ (D0).rhsBatch by decide), dif_pos (show (1 : Fin S256x128.rank) ∈ (D0).rhsNonContracting by decide)]
  rfl

/-- One block's product read at an entry: the sum over the 256 shared coordinates of the block's row times the
    weight's column. -/
theorem block_product_apply (x : Vec Ideal S2000x256 .f32) (w : Vec Ideal S256x128 .f32) (y : S2000x128.Idx) :
    k0_pay1 (F := Ideal) x w y = ∑ k : Fin 256, x (rowAt y k) * w (colAt y k) := by
  unfold k0_pay1
  refine (Ideal.matmul_constant_zero_apply (D0) none _ _ y).trans ?_
  rw [← Equiv.sum_comp (ValueIdx.contrEquiv1 (D0) 256 rfl rfl).symm]
  refine Finset.sum_congr rfl fun k _ => ?_
  have hk := ValueIdx.contrEquiv1_symm_val (D0) 256 rfl rfl k
  have el : (D0).lhsIdx y ((ValueIdx.contrEquiv1 (D0) 256 rfl rfl).symm k) = rowAt y k := funext fun a => Fin.ext (by
    match a with
    | ⟨0, _⟩ => exact lhs0 _ _
    | ⟨1, _⟩ => exact (lhs1 _ _).trans hk)
  have er : (D0).rhsIdx y ((ValueIdx.contrEquiv1 (D0) 256 rfl rfl).symm k) = colAt y k := funext fun a => Fin.ext (by
    match a with
    | ⟨0, _⟩ => exact (rhs0 _ _).trans hk
    | ⟨1, _⟩ => exact rhs1 _ _)
  rw [el, er]
  rfl

/-- Where the three windows' blocks sit at grid point `t`: the blocks of `x` and of the output are row block `t`, the
    weight matrix is its one block. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays as the region finds them. -/
theorem flushed_eq (c : Dev nD) (t : Fin cfg0.N) (x : S100000x256.Idx → EReal) (w : S256x128.Idx → EReal)
    (hx : V c main_arg0 = x) (hw : V c main_arg3 = w) :
    (dat0 V c).flushed 2 t = ((cfg0.win 2).blk t).view.read (Elt Ideal)
      (Cert.ReferenceIdeal.Read.val_main_v40 (F := Ideal) x w) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  obtain ⟨e0, e1, e2, e3, e4, e5⟩ := block_positions t
  funext y
  show k0_pay1 (F := Ideal) (iblk0 V c 0 t) (iblk0 V c 1 t) y
    = Cert.ReferenceIdeal.Read.val_main_v40 (F := Ideal) x w (((cfg0.win 2).blk t).view.emb y)
  rw [block_product_apply, Cert.ReferenceIdeal.Read.val_main_v40_apply]
  refine Finset.sum_congr rfl fun k _ => ?_
  have hl : ((cfg0.win 0).blk t).view.emb (rowAt y k)
      = Cert.ReferenceIdeal.Read.lidx_main_v40 (((cfg0.win 2).blk t).view.emb y) k := by
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 256 + 1 * k.val = k.val; omega
  have hr : ((cfg0.win 1).blk t).view.emb (colAt y k)
      = Cert.ReferenceIdeal.Read.ridx_main_v40 (((cfg0.win 2).blk t).view.emb y) k := by
    funext a; apply Fin.ext
    match a with
    | ⟨0, _⟩ => show win0_1.index t (0 : Fin 2) * 256 + 1 * k.val = k.val; omega
    | ⟨1, _⟩ => show win0_1.index t (1 : Fin 2) * 128 + 1 * (y 1).val = win0_2.index t (1 : Fin 2) * 128 + 1 * (y 1).val; omega
  have e0 : iblk0 V c 0 t (rowAt y k) = x (((cfg0.win 0).blk t).view.emb (rowAt y k)) := congrFun hx _
  have e1 : iblk0 V c 1 t (colAt y k) = w (((cfg0.win 1).blk t).view.emb (colAt y k)) := congrFun hw _
  rw [e0, e1, hl, hr]

/-- An index of the output is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v40).slice (win0_2.rect t)).set ↔ _
  rw [View.set_slice_whole, Rect.mem_set_unit]
  exact Iff.rfl

/-- Row `r` of the output lies in the block of point `r / 2000`: the 50 blocks of 2000 rows tile the 100000 rows. -/
theorem covered (i : S100000x128.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  refine ⟨⟨(i 0).val / 2000, by rw [hN]; omega⟩, flush0_2 _, ?_⟩
  rw [mem_block]
  obtain ⟨e0, e1, e2, e3, e4, e5⟩ := block_positions ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- After the region its output array is the product of the two arrays it was entered with. -/
theorem final (c : Dev nD) : (dat0 V c).arrAt 2 cfg0.N
    = Cert.ReferenceIdeal.Read.val_main_v40 (F := Ideal) (V c main_arg0) (V c main_arg3) :=
  (dat0 V c).arrAt_eq_of_cover 2 _ (fun t _ => flushed_eq V c t _ _ rfl rfl) covered

end Cert.KernelIdeal.FirstProduct

end
-- ==== Proof.HiddenProduct.lean ====
/-
  The hidden layer's product, block by block. The second kernel region takes the first aggregate `A` (100000 × 128) in
  50 blocks of 2000 rows, the bias row `b` (1 × 128) and the joined weight matrix `W` (128 × 128) whole; on each block it
  adds the bias row to every row, takes the maximum with 0, and multiplies the result by `W` into a zero accumulator.
  An entry of that product depends on one row of the block only, so the 50 blocks written back are the row blocks of
  one array: entry `(r, j)` is `∑ k, max (A (r, k) + b (0, k)) 0 · W (k, j)`. On the extended reals a change of float
  format is the identity.
-/
import proofs.«152899_j68436008894840_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.HiddenProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## Inside one block -/

/-- Row `y 0`, column `k` of a block of 2000 rows. -/
abbrev rowAt (y : S2000x128.Idx) (k : Fin 128) : S2000x128.Idx := fun a => match a with
  | ⟨0, _⟩ => ⟨(y 0).val, (y 0).isLt⟩
  | ⟨1, _⟩ => ⟨k.val, k.isLt⟩
/-- Row `k`, column `y 1` of the weight matrix. -/
abbrev colAt (y : S2000x128.Idx) (k : Fin 128) : S128x128.Idx := fun a => match a with
  | ⟨0, _⟩ => ⟨k.val, k.isLt⟩
  | ⟨1, _⟩ => ⟨(y 1).val, (y 1).isLt⟩
/-- Entry `k` of the bias row. -/
abbrev biasAt (k : Fin 128) : S1x128.Idx := fun a => match a with
  | ⟨0, _⟩ => ⟨0, Nat.one_pos⟩
  | ⟨1, _⟩ => ⟨k.val, k.isLt⟩

local notation "D1" => dot_S2000x128_S128x128_S2000x128_1_0_0_1_n_n

theorem lhs0 (i : S2000x128.Idx) (q : (D1).contr.Idx) : ((D1).lhsIdx i q 0).val = (i 0).val := by
  unfold DotDims.lhsIdx
  rw [dif_neg (show ¬(0 : Fin S2000x128.rank) ∈ (D1).lhsBatch by decide), dif_pos (show (0 : Fin S2000x128.rank) ∈ (D1).lhsNonContracting by decide)]
  rfl
theorem lhs1 (i : S2000x128.Idx) (q : (D1).contr.Idx) : ((D1).lhsIdx i q 1).val = (q ⟨0, by decide⟩).val :=
  (D1).lhsIdx_val_of_single rfl i q
theorem rhs0 (i : S2000x128.Idx) (q : (D1).contr.Idx) : ((D1).rhsIdx i q 0).val = (q ⟨0, by decide⟩).val :=
  (D1).rhsIdx_val_of_single rfl i q
theorem rhs1 (i : S2000x128.Idx) (q : (D1).contr.Idx) : ((D1).rhsIdx i q 1).val = (i 1).val := by
  unfold DotDims.rhsIdx
  rw [dif_neg (show ¬(1 : Fin S128x128.rank) ∈ (D1).rhsBatch by decide), dif_pos (show (1 : Fin S128x128.rank) ∈ (D1).rhsNonContracting by decide)]
  rfl

/-- The bias row repeated down the block, read at an entry of column `k`. -/
theorem bias_rows_apply (b : Vec Ideal S1x128 .f32) (z : S2000x128.Idx) (k : Fin 128) (hz : (z 1).val = k.val) :
    broadcastTo S2000x128 b broadcasts_S1x128_S2000x128 z = b (biasAt k) := by
  refine broadcastTo_apply b broadcasts_S1x128_S2000x128 z (biasAt k) fun a => ?_
  match a with
  | ⟨0, _⟩ => show (0 : Nat) = if (1 : Nat) = 1 then 0 else (z 0).val; rw [if_pos rfl]
  | ⟨1, _⟩ => show k.val = if (128 : Nat) = 1 then 0 else (z 1).val; rw [if_neg (by decide)]; exact hz.symm

/-- One block's result read at an entry: the sum over the 128 hidden coordinates of the activated row times the
    weight's column. -/
theorem block_product_apply (x : Vec Ideal S2000x128 .f32) (b : Vec Ideal S1x128 .f32) (w : Vec Ideal S128x128 .f32) (y : S2000x128.Idx) :
    k1_pay1 (F := Ideal) x b w y
      = ∑ k : Fin 128, max (x (rowAt y k) + b (biasAt k)) (Ideal.ofBits .f32 0x00000000#32) * w (colAt y k) := by
  unfold k1_pay1
  refine (Ideal.matmul_constant_zero_apply (D1) none _ _ y).trans ?_
  rw [← Equiv.sum_comp (ValueIdx.contrEquiv1 (D1) 128 rfl rfl).symm]
  refine Finset.sum_congr rfl fun k _ => ?_
  have hk := ValueIdx.contrEquiv1_symm_val (D1) 128 rfl rfl k
  have el : (D1).lhsIdx y ((ValueIdx.contrEquiv1 (D1) 128 rfl rfl).symm k) = rowAt y k := funext fun a => Fin.ext (by
    match a with
    | ⟨0, _⟩ => exact lhs0 _ _
    | ⟨1, _⟩ => exact (lhs1 _ _).trans hk)
  have er : (D1).rhsIdx y ((ValueIdx.contrEquiv1 (D1) 128 rfl rfl).symm k) = colAt y k := funext fun a => Fin.ext (by
    match a with
    | ⟨0, _⟩ => exact (rhs0 _ _).trans hk
    | ⟨1, _⟩ => exact rhs1 _ _)
  rw [el, er]
  show max (shapeCast S2000x128 x shapeCasts_S2000x128_S2000x128 (rowAt y k)
        + broadcastTo S2000x128 (shapeCast S1x128 b shapeCasts_S1x128_S1x128) broadcasts_S1x128_S2000x128 (rowAt y k))
      (Ideal.ofBits .f32 0x00000000#32) * shapeCast S128x128 w shapeCasts_S128x128_S128x128 (colAt y k) = _
  rw [shapeCast_self, shapeCast_self, shapeCast_self, bias_rows_apply b (rowAt y k) k rfl]

/-! ## The whole arrays -/

/-- Row `i 0`, column `k` of the aggregate. -/
abbrev rowOf (i : S100000x128.Idx) (k : Fin 128) : S100000x128.Idx := fun a => match a with
  | ⟨0, _⟩ => ⟨(i 0).val, (i 0).isLt⟩
  | ⟨1, _⟩ => ⟨k.val, k.isLt⟩
/-- Row `k`, column `i 1` of the weight matrix. -/
abbrev colOf (i : S100000x128.Idx) (k : Fin 128) : S128x128.Idx := fun a => match a with
  | ⟨0, _⟩ => ⟨k.val, k.isLt⟩
  | ⟨1, _⟩ => ⟨(i 1).val, (i 1).isLt⟩

/-- The hidden layer's product: `max (A + b) 0` times `W`. -/
def hiddenProduct (A : S100000x128.Idx → EReal) (b : S1x128.Idx → EReal) (W : S128x128.Idx → EReal) : S100000x128.Idx → EReal :=
  fun i => ∑ k : Fin 128, max (A (rowOf i k) + b (biasAt k)) (Ideal.ofBits .f32 0x00000000#32) * W (colOf i k)

/-- Where the four windows' blocks sit at grid point `t`: the aggregate's and the output's blocks are row block `t`,
    the bias row and the weight matrix are each their one block. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the hidden layer's product of the arrays as the region finds them. -/
theorem flushed_eq (c : Dev nD) (t : Fin cfg1.N) (A : S100000x128.Idx → EReal) (bias : S1x128.Idx → EReal) (W : S128x128.Idx → EReal)
    (hA' : V c main_v53 = A) (hb' : V c main_v55 = bias) (hW' : V c main_v54 = W) :
    (dat1 V c).flushed 3 t = ((cfg1.win 3).blk t).view.read (Elt Ideal) (hiddenProduct A bias W) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S1x128) zero_offsets,
    View.ld_unit_zero (S := S128x128) zero_offsets]
  obtain ⟨e0, e1, e2, e3, e4, e5, e6, e7⟩ := block_positions t
  funext y
  show k1_pay1 (F := Ideal) (iblk1 V c 0 t) (iblk1 V c 1 t) (iblk1 V c 2 t) y
    = hiddenProduct A bias W (((cfg1.win 3).blk t).view.emb y)
  rw [block_product_apply]
  unfold hiddenProduct
  refine Finset.sum_congr rfl fun k _ => ?_
  have hA : ((cfg1.win 0).blk t).view.emb (rowAt y k) = rowOf (((cfg1.win 3).blk t).view.emb y) k := by
    funext a; apply Fin.ext
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 128 + 1 * k.val = k.val; omega
  have hb : ((cfg1.win 1).blk t).view.emb (biasAt k) = biasAt k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hW : ((cfg1.win 2).blk t).view.emb (colAt y k) = colOf (((cfg1.win 3).blk t).view.emb y) k := by
    funext a; apply Fin.ext
    match a with
    | ⟨0, _⟩ => show win1_2.index t (0 : Fin 2) * 128 + 1 * k.val = k.val; omega
    | ⟨1, _⟩ => show win1_2.index t (1 : Fin 2) * 128 + 1 * (y 1).val = win1_3.index t (1 : Fin 2) * 128 + 1 * (y 1).val; omega
  have e0 : iblk1 V c 0 t (rowAt y k) = A (((cfg1.win 0).blk t).view.emb (rowAt y k)) := congrFun hA' _
  have e1 : iblk1 V c 1 t (biasAt k) = bias (((cfg1.win 1).blk t).view.emb (biasAt k)) := congrFun hb' _
  have e2 : iblk1 V c 2 t (colAt y k) = W (((cfg1.win 2).blk t).view.emb (colAt y k)) := congrFun hW' _
  rw [e0, e1, e2, hA, hb, hW]

/-- An index of the output is in point `t`'s block iff each coordinate is in the block's range on its axis. -/
theorem mem_block (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v56).slice (win1_3.rect t)).set ↔ _
  rw [View.set_slice_whole, Rect.mem_set_unit]
  exact Iff.rfl

/-- Row `r` of the output lies in the block of point `r / 2000`. -/
theorem covered (i : S100000x128.Idx) : ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  refine ⟨⟨(i 0).val / 2000, by rw [hN]; omega⟩, flush1_3 _, ?_⟩
  rw [mem_block]
  obtain ⟨e0, e1, e2, e3, e4, e5, e6, e7⟩ := block_positions ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

/-- After the region its output array is the hidden layer's product of the three arrays it was entered with. -/
theorem final (c : Dev nD) : (dat1 V c).arrAt 3 cfg1.N = hiddenProduct (V c main_v53) (V c main_v55) (V c main_v54) :=
  (dat1 V c).arrAt_eq_of_cover 3 _ (fun t _ => flushed_eq V c t _ _ _ rfl rfl rfl) covered

end Cert.KernelIdeal.HiddenProduct

end
-- ==== Proof.BiasSplit.lean ====
/-
  The last region: add the bias row and cut the columns in two. The region takes the second aggregate `A` (100000 × 128)
  in 50 blocks of 2000 rows and the bias row `b` (1 × 128) whole, adds the row to every row of the block, and writes
  columns 0–63 of the sum to its first output and columns 64–127 to its second, each as the same 2000 rows. So after
  the region the first output holds `A (r, j) + b (0, j)` and the second `A (r, 64 + j) + b (0, 64 + j)`, for `j < 64`.
-/
import proofs.«152899_j68436008894840_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.BiasSplit

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## Inside one block -/

/-- Entry `(r, j)` of the 128-column block, for `j < 64`. -/
abbrev lowAt (y : S2000x64.Idx) : S2000x128.Idx := fun a => match a with
  | ⟨0, _⟩ => ⟨(y 0).val, (y 0).isLt⟩
  | ⟨1, _⟩ => ⟨(y 1).val, by have h : (y 1).val < 64 := (y 1).isLt; show (y 1).val < 128; omega⟩
/-- Entry `(r, 64 + j)` of the 128-column block. -/
abbrev highAt (y : S2000x64.Idx) : S2000x128.Idx := fun a => match a with
  | ⟨0, _⟩ => ⟨(y 0).val, (y 0).isLt⟩
  | ⟨1, _⟩ => ⟨64 + (y 1).val, by have h : (y 1).val < 64 := (y 1).isLt; show 64 + (y 1).val < 128; omega⟩
/-- Entry `j` of the bias row. -/
abbrev biasLow (y : S2000x64.Idx) : S1x128.Idx := fun a => match a with
  | ⟨0, _⟩ => ⟨0, Nat.one_pos⟩
  | ⟨1, _⟩ => ⟨(y 1).val, by have h : (y 1).val < 64 := (y 1).isLt; show (y 1).val < 128; omega⟩
/-- Entry `64 + j` of the bias row. -/
abbrev biasHigh (y : S2000x64.Idx) : S1x128.Idx := fun a => match a with
  | ⟨0, _⟩ => ⟨0, Nat.one_pos⟩
  | ⟨1, _⟩ => ⟨64 + (y 1).val, by have h : (y 1).val < 64 := (y 1).isLt; show 64 + (y 1).val < 128; omega⟩

/-- The block plus the bias row, read at an entry. -/
theorem sum_apply (x : Vec Ideal S2000x128 .f32) (b : Vec Ideal S1x128 .f32) (z : S2000x128.Idx) (zb : S1x128.Idx)
    (h0 : (zb 0).val = 0) (h1 : (zb 1).val = (z 1).val) :
    k2_pay1 (F := Ideal) x b z = x z + b zb := by
  unfold k2_pay1
  show shapeCast S2000x128 x shapeCasts_S2000x128_S2000x128 z
      + broadcastTo S2000x128 (shapeCast S1x128 b shapeCasts_S1x128_S1x128) broadcasts_S1x128_S2000x128 z = _
  rw [shapeCast_self, shapeCast_self]
  congr 1
  refine broadcastTo_apply b broadcasts_S1x128_S2000x128 z zb fun a => ?_
  match a with
  | ⟨0, _⟩ => show (zb 0).val = if (1 : Nat) = 1 then 0 else (z 0).val; rw [if_pos rfl]; exact h0
  | ⟨1, _⟩ => show (zb 1).val = if (128 : Nat) = 1 then 0 else (z 1).val; rw [if_neg (by decide)]; exact h1

/-- The first output's block at `(r, j)`: the sum at `(r, j)`. -/
theorem low_half_apply (x : Vec Ideal S2000x128 .f32) (b : Vec Ideal S1x128 .f32) (y : S2000x64.Idx) :
    k2_pay2 (F := Ideal) x b y = x (lowAt y) + b (biasLow y) := by
  rw [← sum_apply x b (lowAt y) (biasLow y) rfl rfl]
  unfold k2_pay2
  generalize k2_pay1 (F := Ideal) x b = s
  exact extractStridedSlice_apply ![0, 0] s slices_S2000x128_o0_0_S2000x64 y (lowAt y) (fun a => match a with
    | ⟨0, _⟩ => by show (y 0).val = 0 + (y 0).val; omega
    | ⟨1, _⟩ => by show (y 1).val = 0 + (y 1).val; omega)

/-- The second output's block at `(r, j)`: the sum at `(r, 64 + j)`. -/
theorem high_half_apply (x : Vec Ideal S2000x128 .f32) (b : Vec Ideal S1x128 .f32) (y : S2000x64.Idx) :
    k2_pay3 (F := Ideal) x b y = x (highAt y) + b (biasHigh y) := by
  rw [← sum_apply x b (highAt y) (biasHigh y) rfl rfl]
  unfold k2_pay3
  generalize k2_pay1 (F := Ideal) x b = s
  exact extractStridedSlice_apply ![0, 64] s slices_S2000x128_o0_64_S2000x64 y (highAt y) (fun a => match a with
    | ⟨0, _⟩ => by show (y 0).val = 0 + (y 0).val; omega
    | ⟨1, _⟩ => by show 64 + (y 1).val = 64 + (y 1).val; rfl)

/-! ## The whole arrays -/

/-- Entry `(r, j)` of a 128-column array, for `j < 64`. -/
abbrev lowOf (i : S100000x64.Idx) : S100000x128.Idx := fun a => match a with
  | ⟨0, _⟩ => ⟨(i 0).val, (i 0).isLt⟩
  | ⟨1, _⟩ => ⟨(i 1).val, by have h : (i 1).val < 64 := (i 1).isLt; show (i 1).val < 128; omega⟩
/-- Entry `(r, 64 + j)` of a 128-column array. -/
abbrev highOf (i : S100000x64.Idx) : S100000x128.Idx := fun a => match a with
  | ⟨0, _⟩ => ⟨(i 0).val, (i 0).isLt⟩
  | ⟨1, _⟩ => ⟨64 + (i 1).val, by have h : (i 1).val < 64 := (i 1).isLt; show 64 + (i 1).val < 128; omega⟩
/-- Entry `j` of the bias row. -/
abbrev biasLowOf (i : S100000x64.Idx) : S1x128.Idx := fun a => match a with
  | ⟨0, _⟩ => ⟨0, Nat.one_pos⟩
  | ⟨1, _⟩ => ⟨(i 1).val, by have h : (i 1).val < 64 := (i 1).isLt; show (i 1).val < 128; omega⟩
/-- Entry `64 + j` of the bias row. -/
abbrev biasHighOf (i : S100000x64.Idx) : S1x128.Idx := fun a => match a with
  | ⟨0, _⟩ => ⟨0, Nat.one_pos⟩
  | ⟨1, _⟩ => ⟨64 + (i 1).val, by have h : (i 1).val < 64 := (i 1).isLt; show 64 + (i 1).val < 128; omega⟩

/-- The left half of `A + b`. -/
def lowHalf (A : S100000x128.Idx → EReal) (b : S1x128.Idx → EReal) : S100000x64.Idx → EReal :=
  fun i => A (lowOf i) + b (biasLowOf i)
/-- The right half of `A + b`. -/
def highHalf (A : S100000x128.Idx → EReal) (b : S1x128.Idx → EReal) : S100000x64.Idx → EReal :=
  fun i => A (highOf i) + b (biasHighOf i)

/-- Where the four windows' blocks sit at grid point `t`: the aggregate's and both outputs' blocks are row block `t`,
    the bias row is its one block. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What grid point `t` writes back to the first output is block `t` of the left half. -/
theorem flushed_low (c : Dev nD) (t : Fin cfg2.N) (A : S100000x128.Idx → EReal) (bias : S1x128.Idx → EReal)
    (hA' : V c main_v69 = A) (hb' : V c main_v71 = bias) :
    (dat2 V c).flushed 2 t = ((cfg2.win 2).blk t).view.read (Elt Ideal) (lowHalf A bias) := by
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S1x128) zero_offsets]
  obtain ⟨e0, e1, e2, e3, e4, e5, e6, e7⟩ := block_positions t
  funext y
  show k2_pay2 (F := Ideal) (iblk2 V c 0 t) (iblk2 V c 1 t) y = lowHalf A bias (((cfg2.win 2).blk t).view.emb y)
  rw [low_half_apply]
  have hA : ((cfg2.win 0).blk t).view.emb (lowAt y) = lowOf (((cfg2.win 2).blk t).view.emb y) := by
    funext a; apply Fin.ext
    match a with
    | ⟨0, _⟩ => show win2_0.index t (0 : Fin 2) * 2000 + 1 * (y 0).val = win2_2.index t (0 : Fin 2) * 2000 + 1 * (y 0).val; omega
    | ⟨1, _⟩ => show win2_0.index t (1 : Fin 2) * 128 + 1 * (y 1).val = win2_2.index t (1 : Fin 2) * 64 + 1 * (y 1).val; omega
  have hb : ((cfg2.win 1).blk t).view.emb (biasLow y) = biasLowOf (((cfg2.win 2).blk t).view.emb y) := by
    funext a; apply Fin.ext
    match a with
    | ⟨0, _⟩ => show win2_1.index t (0 : Fin 2) * 1 + 1 * 0 = 0; omega
    | ⟨1, _⟩ => show win2_1.index t (1 : Fin 2) * 128 + 1 * (y 1).val = win2_2.index t (1 : Fin 2) * 64 + 1 * (y 1).val; omega
  have e0 : iblk2 V c 0 t (lowAt y) = A (((cfg2.win 0).blk t).view.emb (lowAt y)) := congrFun hA' _
  have e1 : iblk2 V c 1 t (biasLow y) = bias (((cfg2.win 1).blk t).view.emb (biasLow y)) := congrFun hb' _
  rw [e0, e1, hA, hb]
  rfl

/-- What grid point `t` writes back to the second output is block `t` of the right half. -/
theorem flushed_high (c : Dev nD) (t : Fin cfg2.N) (A : S100000x128.Idx → EReal) (bias : S1x128.Idx → EReal)
    (hA' : V c main_v69 = A) (hb' : V c main_v71 = bias) :
    (dat2 V c).flushed 3 t = ((cfg2.win 3).blk t).view.read (Elt Ideal) (highHalf A bias) := by
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S1x128) zero_offsets]
  obtain ⟨e0, e1, e2, e3, e4, e5, e6, e7⟩ := block_positions t
  funext y
  show k2_pay3 (F := Ideal) (iblk2 V c 0 t) (iblk2 V c 1 t) y = highHalf A bias (((cfg2.win 3).blk t).view.emb y)
  rw [high_half_apply]
  have hA : ((cfg2.win 0).blk t).view.emb (highAt y) = highOf (((cfg2.win 3).blk t).view.emb y) := by
    funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 128 + 1 * (64 + (y 1).val) = 64 + (win2_3.index t (1 : Fin 2) * 64 + 1 * (y 1).val); omega
  have hb : ((cfg2.win 1).blk t).view.emb (biasHigh y) = biasHighOf (((cfg2.win 3).blk t).view.emb y) := by
    funext a; apply Fin.ext
    match a with
    | ⟨0, _⟩ => show win2_1.index t (0 : Fin 2) * 1 + 1 * 0 = 0; omega
    | ⟨1, _⟩ => show win2_1.index t (1 : Fin 2) * 128 + 1 * (64 + (y 1).val) = 64 + (win2_3.index t (1 : Fin 2) * 64 + 1 * (y 1).val); omega
  have e0 : iblk2 V c 0 t (highAt y) = A (((cfg2.win 0).blk t).view.emb (highAt y)) := congrFun hA' _
  have e1 : iblk2 V c 1 t (biasHigh y) = bias (((cfg2.win 1).blk t).view.emb (biasHigh y)) := congrFun hb' _
  rw [e0, e1, hA, hb]
  rfl

/-- An index of the first output is in point `t`'s block iff each coordinate is in the block's range on its axis. -/
theorem mem_block_low (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v72_0).slice (win2_2.rect t)).set ↔ _
  rw [View.set_slice_whole, Rect.mem_set_unit]
  exact Iff.rfl
/-- The same for the second output. -/
theorem mem_block_high (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v72_1).slice (win2_3.rect t)).set ↔ _
  rw [View.set_slice_whole, Rect.mem_set_unit]
  exact Iff.rfl

/-- Row `r` of the first output lies in the block of point `r / 2000`. -/
theorem covered_low (i : S100000x64.Idx) : ∃ t : Fin cfg2.N, (cfg2.win 2).flush t = true ∧ i ∈ ((cfg2.win 2).blk t).view.set := by
  have hN : cfg2.N = 50 := N_2
  have hi0 : (i 0).val < 100000 := (i 0).isLt
  have hi1 : (i 1).val < 64 := (i 1).isLt
  refine ⟨⟨(i 0).val / 2000, by rw [hN]; omega⟩, flush2_2 _, ?_⟩
  rw [mem_block_low]
  obtain ⟨e0, e1, e2, e3, e4, e5, e6, e7⟩ := block_positions ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e5]; omega
/-- Row `r` of the second output lies in the block of point `r / 2000`. -/
theorem covered_high (i : S100000x64.Idx) : ∃ t : Fin cfg2.N, (cfg2.win 3).flush t = true ∧ i ∈ ((cfg2.win 3).blk t).view.set := by
  have hN : cfg2.N = 50 := N_2
  have hi0 : (i 0).val < 100000 := (i 0).isLt
  have hi1 : (i 1).val < 64 := (i 1).isLt
  refine ⟨⟨(i 0).val / 2000, by rw [hN]; omega⟩, flush2_3 _, ?_⟩
  rw [mem_block_high]
  obtain ⟨e0, e1, e2, e3, e4, e5, e6, e7⟩ := block_positions ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [e7]; omega

/-- After the region its first output is the left half of aggregate-plus-bias, as entered. -/
theorem final_low (c : Dev nD) : (dat2 V c).arrAt 2 cfg2.N = lowHalf (V c main_v69) (V c main_v71) :=
  (dat2 V c).arrAt_eq_of_cover 2 _ (fun t _ => flushed_low V c t _ _ rfl rfl) covered_low
/-- After the region its second output is the right half. -/
theorem final_high (c : Dev nD) : (dat2 V c).arrAt 3 cfg2.N = highHalf (V c main_v69) (V c main_v71) :=
  (dat2 V c).arrAt_eq_of_cover 3 _ (fun t _ => flushed_high V c t _ _ rfl rfl) covered_high

end Cert.KernelIdeal.BiasSplit

end
-- ==== Proof.KernelFold.lean ====
/-
  What the kernel program's buffers hold at each boundary, as functions of the nine arguments. The contents fold
  through the program in order:

  * the first stretch of host operations computes, from the edge list and the edge weights alone, the source words,
    the destination words (both with one self-loop per node appended) and the normalised edge weights — the very
    operations of the reference, so these three vectors are the reference's own;
  * the first region leaves `x · W1`; the next stretch gathers its rows at the sources, scales by the weights and
    adds into the destinations — again the reference's operations on the reference's operands, so the first
    aggregate is the reference's — and joins the two head matrices side by side and makes the bias a row;
  * the second region leaves the hidden layer's product with the joined matrix; the next stretch aggregates it the
    same way and joins the two head biases into one row;
  * the last region adds that row and writes the left and the right half of the columns to the two results.

  Between these, a buffer no operation of a stretch writes and no region owns keeps its contents, which is how the
  three vectors and the arguments reach the later stretches unchanged.
-/
import proofs.«152899_j68436008894840_1_alg».proof.Proof.Gen.KernelIdeal.Frame
import proofs.«152899_j68436008894840_1_alg».proof.Proof.Gen.ReferenceIdeal.Read
import proofs.«152899_j68436008894840_1_alg».proof.Proof.FirstProduct
import proofs.«152899_j68436008894840_1_alg».proof.Proof.HiddenProduct
import proofs.«152899_j68436008894840_1_alg».proof.Proof.BiasSplit
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.ReferenceIdeal.Read

variable (m : (ℓ : Loc nD τ sig) → Buf (Elt Ideal) ℓ) (ρ : Dev nD → PrngReg) (c : Dev nD)

/-- A reference no operation of the stretch writes keeps its contents through it. -/
local macro "kept_through " ops:ident : tactic => `(tactic| exact StableHlo.after_of_forall_not_mem _ _ (List.forall_iff_forall_mem.mp (by
    simp only [$ops:ident, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Before the first region -/

theorem entry0_arg0 : W3 m ρ c (Proc.devRef .tc main_arg0) = (m ((c : Thread nD τ).loc main_arg0)) := by
  dsimp only [W3, W2, W1, W0, hostOps0, hostOps0_1, hostOps0_2]; after_results_simp <;> rfl
theorem entry0_arg3 : W3 m ρ c (Proc.devRef .tc main_arg3) = (m ((c : Thread nD τ).loc main_arg3)) := by
  dsimp only [W3, W2, W1, W0, hostOps0, hostOps0_1, hostOps0_2]; after_results_simp <;> rfl
theorem entry0_arg4 : W3 m ρ c (Proc.devRef .tc main_arg4) = (m ((c : Thread nD τ).loc main_arg4)) := by
  dsimp only [W3, W2, W1, W0, hostOps0, hostOps0_1, hostOps0_2]; after_results_simp <;> rfl
theorem entry0_arg5 : W3 m ρ c (Proc.devRef .tc main_arg5) = (m ((c : Thread nD τ).loc main_arg5)) := by
  dsimp only [W3, W2, W1, W0, hostOps0, hostOps0_1, hostOps0_2]; after_results_simp <;> rfl
theorem entry0_arg6 : W3 m ρ c (Proc.devRef .tc main_arg6) = (m ((c : Thread nD τ).loc main_arg6)) := by
  dsimp only [W3, W2, W1, W0, hostOps0, hostOps0_1, hostOps0_2]; after_results_simp <;> rfl
theorem entry0_arg7 : W3 m ρ c (Proc.devRef .tc main_arg7) = (m ((c : Thread nD τ).loc main_arg7)) := by
  dsimp only [W3, W2, W1, W0, hostOps0, hostOps0_1, hostOps0_2]; after_results_simp <;> rfl
theorem entry0_arg8 : W3 m ρ c (Proc.devRef .tc main_arg8) = (m ((c : Thread nD τ).loc main_arg8)) := by
  dsimp only [W3, W2, W1, W0, hostOps0, hostOps0_1, hostOps0_2]; after_results_simp <;> rfl

/-- The source words: the edge list's first row with the node numbers appended. -/
theorem entry0_src : W3 m ρ c (Proc.devRef .tc main_v3) = val_main_v3 (F := Ideal) (m ((c : Thread nD τ).loc main_arg1)) := by
  dsimp only [W3, W2, W1, W0, hostOps0, hostOps0_1, hostOps0_2]; after_results_simp <;> rfl
/-- The destination words: the edge list's second row with the node numbers appended. -/
theorem entry0_dst : W3 m ρ c (Proc.devRef .tc main_v7) = val_main_v7 (F := Ideal) (m ((c : Thread nD τ).loc main_arg1)) := by
  dsimp only [W3, W2, W1, W0, hostOps0, hostOps0_1, hostOps0_2]; after_results_simp <;> rfl
/-! The normalised edge weights are reached in three steps, one per stretch of host operations, each read from the
    contents the stretch before it left: the degrees' positivity mask and inverse square roots; the inverse square
    roots with zero where a degree is not positive; and the product of that at the source, the weight, and that at
    the destination. -/

theorem first_mask : W1 m ρ c (Proc.devRef .tc main_v19) = val_main_v19 (F := Ideal) (m ((c : Thread nD τ).loc main_arg1)) (m ((c : Thread nD τ).loc main_arg2)) := by
  dsimp only [W1, W0, hostOps0]; after_results_simp <;> rfl
theorem first_rsqrt : W1 m ρ c (Proc.devRef .tc main_v22) = val_main_v22 (F := Ideal) (m ((c : Thread nD τ).loc main_arg1)) (m ((c : Thread nD τ).loc main_arg2)) := by
  dsimp only [W1, W0, hostOps0]; after_results_simp <;> rfl
theorem first_zero : W1 m ρ c (Proc.devRef .tc main_cst_4) = val_main_cst_4 (F := Ideal) := by
  dsimp only [W1, W0, hostOps0]; after_results_simp <;> rfl

theorem second_src : W2 m ρ c (Proc.devRef .tc main_v3) = val_main_v3 (F := Ideal) (m ((c : Thread nD τ).loc main_arg1)) := by
  dsimp only [W2, W1, W0, hostOps0, hostOps0_1]; after_results_simp <;> rfl
theorem second_dst : W2 m ρ c (Proc.devRef .tc main_v7) = val_main_v7 (F := Ideal) (m ((c : Thread nD τ).loc main_arg1)) := by
  dsimp only [W2, W1, W0, hostOps0, hostOps0_1]; after_results_simp <;> rfl
theorem second_weights : W2 m ρ c (Proc.devRef .tc main_v9) = val_main_v9 (F := Ideal) (m ((c : Thread nD τ).loc main_arg2)) := by
  dsimp only [W2, W1, W0, hostOps0, hostOps0_1]; after_results_simp <;> rfl
/-- A value moved along an equation between a buffer's type and a tensor's type is that value, when the two types are
    the same type. -/
theorem toBuf_same {T : BufTy} (x : StableHlo.TRef sig T) (v : T.Contents (Elt Ideal)) (v' : x.ref.ty.Contents (Elt Ideal))
    (h : HEq v v') : x.toBuf v = v' := eq_of_heq ((cast_heq _ v).trans h)

/-- The inverse square roots of the degrees, zero where the degree is not positive. -/
theorem second_scale : W2 m ρ c (Proc.devRef .tc main_v23) = val_main_v23 (F := Ideal) (m ((c : Thread nD τ).loc main_arg1)) (m ((c : Thread nD τ).loc main_arg2)) := by
  show StableHlo.after hostOps0_1 (W1 m ρ c) (Proc.devRef .tc main_v23) = _
  generalize hw : W1 m ρ c = w
  dsimp only [hostOps0_1]
  after_results_simp
  subst hw
  rw [first_mask, first_rsqrt, first_zero]
  refine toBuf_same _ _ _ (heq_of_eq ?_)
  unfold val_main_v23 val_main_call0_v1 val_main_call0_v0
  congr 1

/-- The normalised edge weights. -/
theorem entry0_norm : W3 m ρ c (Proc.devRef .tc main_v39) = val_main_v39 (F := Ideal) (m ((c : Thread nD τ).loc main_arg1)) (m ((c : Thread nD τ).loc main_arg2)) := by
  show StableHlo.after hostOps0_2 (W2 m ρ c) (Proc.devRef .tc main_v39) = _
  generalize hw : W2 m ρ c = w
  dsimp only [hostOps0_2]
  after_results_simp
  subst hw
  rw [second_scale, second_src, second_dst, second_weights]
  rfl

/-! ## After the first region -/

/-- The first region leaves the product of the node features and the first weight matrix. -/
theorem exit0_product : W4 m ρ c (Proc.devRef .tc main_v40) = val_main_v40 (F := Ideal) (m ((c : Thread nD τ).loc main_arg0)) (m ((c : Thread nD τ).loc main_arg3)) := by
  refine (W4_arr m ρ c 2).trans ((FirstProduct.final (V3 m ρ) c).trans ?_)
  show val_main_v40 (F := Ideal) (W3 m ρ c (Proc.devRef .tc main_arg0)) (W3 m ρ c (Proc.devRef .tc main_arg3)) = _
  rw [entry0_arg0, entry0_arg3]

theorem exit0_src : W4 m ρ c (Proc.devRef .tc main_v3) = val_main_v3 (F := Ideal) (m ((c : Thread nD τ).loc main_arg1)) :=
  (W4_of_ne m ρ c main_v3 (by decide)).trans (entry0_src m ρ c)
theorem exit0_dst : W4 m ρ c (Proc.devRef .tc main_v7) = val_main_v7 (F := Ideal) (m ((c : Thread nD τ).loc main_arg1)) :=
  (W4_of_ne m ρ c main_v7 (by decide)).trans (entry0_dst m ρ c)
theorem exit0_norm : W4 m ρ c (Proc.devRef .tc main_v39) = val_main_v39 (F := Ideal) (m ((c : Thread nD τ).loc main_arg1)) (m ((c : Thread nD τ).loc main_arg2)) :=
  (W4_of_ne m ρ c main_v39 (by decide)).trans (entry0_norm m ρ c)
theorem exit0_arg4 : W4 m ρ c (Proc.devRef .tc main_arg4) = (m ((c : Thread nD τ).loc main_arg4)) :=
  (W4_of_ne m ρ c main_arg4 (by decide)).trans (entry0_arg4 m ρ c)
theorem exit0_arg5 : W4 m ρ c (Proc.devRef .tc main_arg5) = (m ((c : Thread nD τ).loc main_arg5)) :=
  (W4_of_ne m ρ c main_arg5 (by decide)).trans (entry0_arg5 m ρ c)
theorem exit0_arg6 : W4 m ρ c (Proc.devRef .tc main_arg6) = (m ((c : Thread nD τ).loc main_arg6)) :=
  (W4_of_ne m ρ c main_arg6 (by decide)).trans (entry0_arg6 m ρ c)
theorem exit0_arg7 : W4 m ρ c (Proc.devRef .tc main_arg7) = (m ((c : Thread nD τ).loc main_arg7)) :=
  (W4_of_ne m ρ c main_arg7 (by decide)).trans (entry0_arg7 m ρ c)
theorem exit0_arg8 : W4 m ρ c (Proc.devRef .tc main_arg8) = (m ((c : Thread nD τ).loc main_arg8)) :=
  (W4_of_ne m ρ c main_arg8 (by decide)).trans (entry0_arg8 m ρ c)

/-! ## Before the second region -/

/-- The first aggregate is the reference's: the same gather, scaling and scatter-add of the same product, sources,
    destinations and weights. -/
theorem entry1_agg : W5 m ρ c (Proc.devRef .tc main_v53)
    = val_main_v53 (F := Ideal) (m ((c : Thread nD τ).loc main_arg0)) (m ((c : Thread nD τ).loc main_arg1)) (m ((c : Thread nD τ).loc main_arg2)) (m ((c : Thread nD τ).loc main_arg3)) := by
  dsimp only [W5, hostOps1]
  after_results_simp
  rw [exit0_product, exit0_src, exit0_dst, exit0_norm]
  rfl

/-- The two head matrices side by side. -/
def joinedWeights (w5 w7 : S128x64.Idx → EReal) : S128x128.Idx → EReal :=
  concatenate S128x128 1 [⟨S128x64, w5⟩, ⟨S128x64, w7⟩] concatenates_S128x64_S128x64_S128x128_d1
/-- The hidden bias as a row. -/
def biasRow (b : S128.Idx → EReal) : S1x128.Idx → EReal := shapeCast S1x128 b shapeCasts_S128_S1x128

theorem entry1_weights : W5 m ρ c (Proc.devRef .tc main_v54) = joinedWeights (m ((c : Thread nD τ).loc main_arg5)) (m ((c : Thread nD τ).loc main_arg7)) := by
  dsimp only [W5, hostOps1]
  after_results
  rw [exit0_arg5, exit0_arg7]
  rfl
theorem entry1_bias : W5 m ρ c (Proc.devRef .tc main_v55) = biasRow (m ((c : Thread nD τ).loc main_arg4)) := by
  dsimp only [W5, hostOps1]
  after_results
  rw [exit0_arg4]
  rfl

theorem entry1_src : W5 m ρ c (Proc.devRef .tc main_v3) = val_main_v3 (F := Ideal) (m ((c : Thread nD τ).loc main_arg1)) :=
  (show W5 m ρ c (Proc.devRef .tc main_v3) = W4 m ρ c (Proc.devRef .tc main_v3) by kept_through hostOps1).trans (exit0_src m ρ c)
theorem entry1_dst : W5 m ρ c (Proc.devRef .tc main_v7) = val_main_v7 (F := Ideal) (m ((c : Thread nD τ).loc main_arg1)) :=
  (show W5 m ρ c (Proc.devRef .tc main_v7) = W4 m ρ c (Proc.devRef .tc main_v7) by kept_through hostOps1).trans (exit0_dst m ρ c)
theorem entry1_norm : W5 m ρ c (Proc.devRef .tc main_v39) = val_main_v39 (F := Ideal) (m ((c : Thread nD τ).loc main_arg1)) (m ((c : Thread nD τ).loc main_arg2)) :=
  (show W5 m ρ c (Proc.devRef .tc main_v39) = W4 m ρ c (Proc.devRef .tc main_v39) by kept_through hostOps1).trans (exit0_norm m ρ c)
theorem entry1_arg6 : W5 m ρ c (Proc.devRef .tc main_arg6) = (m ((c : Thread nD τ).loc main_arg6)) :=
  (show W5 m ρ c (Proc.devRef .tc main_arg6) = W4 m ρ c (Proc.devRef .tc main_arg6) by kept_through hostOps1).trans (exit0_arg6 m ρ c)
theorem entry1_arg8 : W5 m ρ c (Proc.devRef .tc main_arg8) = (m ((c : Thread nD τ).loc main_arg8)) :=
  (show W5 m ρ c (Proc.devRef .tc main_arg8) = W4 m ρ c (Proc.devRef .tc main_arg8) by kept_through hostOps1).trans (exit0_arg8 m ρ c)

/-! ## After the second region -/

/-- The hidden layer's product with the joined matrix, of the reference's first aggregate. -/
abbrev hidden : S100000x128.Idx → EReal :=
  HiddenProduct.hiddenProduct (val_main_v53 (F := Ideal) (m ((c : Thread nD τ).loc main_arg0)) (m ((c : Thread nD τ).loc main_arg1)) (m ((c : Thread nD τ).loc main_arg2)) (m ((c : Thread nD τ).loc main_arg3))) (biasRow (m ((c : Thread nD τ).loc main_arg4))) (joinedWeights (m ((c : Thread nD τ).loc main_arg5)) (m ((c : Thread nD τ).loc main_arg7)))

theorem exit1_hidden : W6 m ρ c (Proc.devRef .tc main_v56) = hidden m c := by
  refine (W6_arr m ρ c 3).trans ((HiddenProduct.final (V5 m ρ) c).trans ?_)
  show HiddenProduct.hiddenProduct (W5 m ρ c (Proc.devRef .tc main_v53)) (W5 m ρ c (Proc.devRef .tc main_v55)) (W5 m ρ c (Proc.devRef .tc main_v54)) = _
  rw [entry1_agg, entry1_bias, entry1_weights]

theorem exit1_src : W6 m ρ c (Proc.devRef .tc main_v3) = val_main_v3 (F := Ideal) (m ((c : Thread nD τ).loc main_arg1)) :=
  (W6_of_ne m ρ c main_v3 (by decide)).trans (entry1_src m ρ c)
theorem exit1_dst : W6 m ρ c (Proc.devRef .tc main_v7) = val_main_v7 (F := Ideal) (m ((c : Thread nD τ).loc main_arg1)) :=
  (W6_of_ne m ρ c main_v7 (by decide)).trans (entry1_dst m ρ c)
theorem exit1_norm : W6 m ρ c (Proc.devRef .tc main_v39) = val_main_v39 (F := Ideal) (m ((c : Thread nD τ).loc main_arg1)) (m ((c : Thread nD τ).loc main_arg2)) :=
  (W6_of_ne m ρ c main_v39 (by decide)).trans (entry1_norm m ρ c)
theorem exit1_arg6 : W6 m ρ c (Proc.devRef .tc main_arg6) = (m ((c : Thread nD τ).loc main_arg6)) :=
  (W6_of_ne m ρ c main_arg6 (by decide)).trans (entry1_arg6 m ρ c)
theorem exit1_arg8 : W6 m ρ c (Proc.devRef .tc main_arg8) = (m ((c : Thread nD τ).loc main_arg8)) :=
  (W6_of_ne m ρ c main_arg8 (by decide)).trans (entry1_arg8 m ρ c)

/-! ## Before the last region -/

/-- A source word below zero counts from the end: `src + 100000` there, `src` elsewhere. -/
def wrapped (src : IVec S1700000 32) : IVec S1700000 32 :=
  select (cmpi .slt src (broadcastInDim S1700000 ![] bcast_S_S1700000 (constantI S_ 32 0#32)))
    (addi src (broadcastInDim S1700000 ![] bcast_S_S1700000 (constantI S_ 32 100000#32))) src

/-- One round of message passing on a matrix of 128 columns: gather the rows at the sources, scale by the weights,
    add into the rows at the destinations. -/
def aggregate128 (h : S100000x128.Idx → EReal) (src dst : IVec S1700000 32) (nrm : S1700000.Idx → EReal) : S100000x128.Idx → EReal :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (F := Ideal) (φ := .f32) (Host.gather gather_S100000x128_S1700000x1_S1700000x128_1_0_n_n_0_1_1128 h
        (broadcastInDim S1700000x1 ![0] bcast_S1700000_S1700000x1_0 (wrapped src)))
      (broadcastInDim S1700000x128 ![0, 1] bcast_S1700000x1_S1700000x128_0_1
        (broadcastInDim S1700000x1 ![0] bcast_S1700000_S1700000x1_0 nrm)))

/-- The second aggregate: one round of message passing on the hidden layer's product. -/
theorem entry2_agg : W7 m ρ c (Proc.devRef .tc main_v69)
    = aggregate128 (hidden m c) (val_main_v3 (F := Ideal) (m ((c : Thread nD τ).loc main_arg1))) (val_main_v7 (F := Ideal) (m ((c : Thread nD τ).loc main_arg1)))
        (val_main_v39 (F := Ideal) (m ((c : Thread nD τ).loc main_arg1)) (m ((c : Thread nD τ).loc main_arg2))) := by
  dsimp only [W7, hostOps2]
  after_results_simp
  rw [exit1_hidden, exit1_src, exit1_dst, exit1_norm]
  rfl

/-- The two head biases end to end, as a row. -/
def joinedBias (b6 b8 : S64.Idx → EReal) : S1x128.Idx → EReal :=
  shapeCast S1x128 (concatenate S128 0 [⟨S64, b6⟩, ⟨S64, b8⟩] concatenates_S64_S64_S128_d0) shapeCasts_S128_S1x128

theorem entry2_bias : W7 m ρ c (Proc.devRef .tc main_v71) = joinedBias (m ((c : Thread nD τ).loc main_arg6)) (m ((c : Thread nD τ).loc main_arg8)) := by
  dsimp only [W7, hostOps2]
  after_results
  rw [exit1_arg6, exit1_arg8]
  rfl

/-! ## The two results -/

/-- The second aggregate of the kernel program, as a function of the arguments. -/
abbrev secondAggregate : S100000x128.Idx → EReal :=
  aggregate128 (hidden m c) (val_main_v3 (F := Ideal) (m ((c : Thread nD τ).loc main_arg1))) (val_main_v7 (F := Ideal) (m ((c : Thread nD τ).loc main_arg1)))
    (val_main_v39 (F := Ideal) (m ((c : Thread nD τ).loc main_arg1)) (m ((c : Thread nD τ).loc main_arg2)))

theorem result_low : W8 m ρ c (Proc.devRef .tc main_v72_0)
    = BiasSplit.lowHalf (secondAggregate m c) (joinedBias (m ((c : Thread nD τ).loc main_arg6)) (m ((c : Thread nD τ).loc main_arg8))) := by
  refine (W8_arr m ρ c 2).trans ((BiasSplit.final_low (V7 m ρ) c).trans ?_)
  show BiasSplit.lowHalf (W7 m ρ c (Proc.devRef .tc main_v69)) (W7 m ρ c (Proc.devRef .tc main_v71)) = _
  rw [entry2_agg, entry2_bias]

theorem result_high : W8 m ρ c (Proc.devRef .tc main_v72_1)
    = BiasSplit.highHalf (secondAggregate m c) (joinedBias (m ((c : Thread nD τ).loc main_arg6)) (m ((c : Thread nD τ).loc main_arg8))) := by
  refine (W8_arr m ρ c 3).trans ((BiasSplit.final_high (V7 m ρ) c).trans ?_)
  show BiasSplit.highHalf (W7 m ρ c (Proc.devRef .tc main_v69)) (W7 m ρ c (Proc.devRef .tc main_v71)) = _
  rw [entry2_agg, entry2_bias]

end Cert.KernelIdeal.Fold

end
-- ==== Proof.LibRowGatherScatter.lean ====
/-
  Rows taken and rows added: StableHLO's `gather` and accumulating float `scatter` for the dimension numbers
  that take whole rows of a matrix (or single entries of a vector) at a column of integer indices, read at one
  index, for arbitrary sizes. `N` is the number of rows of the operand, `M` the number of index entries and `C`
  the number of columns. The gather reads the operand's row at the index entry, read as a signed integer and
  clamped into `[0, N - 1]`; the scatter adds to row `v` every update row whose index entry, read as a signed
  integer and NOT clamped, equals `v` (an entry outside `[0, N - 1]` is dropped). Last, the one distributive law
  of the extended reals such a sum needs: multiplying a finite sum by a nonnegative real on the right.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

/-! ## `stablehlo.gather` taking rows of a matrix -/

section GatherRows
variable {α : Type}

/-- The dimension numbers of "take rows": operand `[N, C]`, start indices `[M, 1]`, result `[M, C]`; the result's
    axis 1 is the offset axis (a whole row of `C` entries is the slice), the operand's axis 0 is collapsed and is
    the one the start index addresses. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the operand's row number `idx[e, 0]`, the index read as a signed
    integer and clamped into `[0, N - 1]`. -/
theorem gather_row_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGatherDims N M C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N M C wf).start (ix2 e k) idx 0 + (rowGatherDims N M C wf).batchCoord (ix2 e k) 0
      + (rowGatherDims N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e k) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e k) idx 1 + (rowGatherDims N M C wf).batchCoord (ix2 e k) 1
      + (rowGatherDims N M C wf).offCoord (ix2 e k) 1 = k.val
    rw [GatherDims.batchCoord_eq_zero _ _ _ List.not_mem_nil]
    unfold GatherDims.start
    rw [dif_neg (show (1 : Fin 2) ∉ (rowGatherDims N M C wf).startIndexMap from
      (by decide : (1 : Fin 2) ∉ ([0] : List (Fin 2))))]
    simp only [Nat.add_zero, Nat.zero_add]
    unfold GatherDims.offCoord
    rw [dif_pos (show (1 : Fin 2) ∈ (rowGatherDims N M C wf).sKept from
      (GatherDims.mem_sKept _ _).mpr ⟨(by decide : (1 : Fin 2) ∉ ([0] : List (Fin 2))), List.not_mem_nil⟩)]
    rfl

end GatherRows

/-! ## The accumulating float `stablehlo.scatter` adding rows to a matrix -/

section ScatterRows

/-- The dimension numbers of "add rows": operand `[N, C]`, scatter indices `[M, 1]`, updates `[M, C]`; the
    updates' axis 1 is the window axis (a whole row of `C` entries is the window), the operand's axis 0 is the
    inserted window axis and is the one the scatter index addresses. The conditions `wf` are decided on a
    program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k')` starts at the scatter index `idx[e, 0]`, read as a signed
    integer. -/
theorem rowScatter_start0 (idx : IVec ⟨2, ![M, 1]⟩ w) (e : Fin M) (k' : Fin C) :
    (rowScatterDims N M C wf).start (ix2 e k') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e k')
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter index does not address it. -/
theorem rowScatter_start1 (idx : IVec ⟨2, ![M, 1]⟩ w) (e : Fin M) (k' : Fin C) :
    (rowScatterDims N M C wf).start (ix2 e k') idx 1 = 0 := by
  unfold ScatterDims.start
  rw [dif_neg (show (1 : Fin 2) ∉ (rowScatterDims N M C wf).scatterDimsToOperandDims from
    (by decide : (1 : Fin 2) ∉ ([0] : List (Fin 2))))]

/-- The row axis is inserted: the window coordinate there is `0`. -/
theorem rowScatter_window0 (e : Fin M) (k' : Fin C) : (rowScatterDims N M C wf).window (ix2 e k') 0 = 0 := by
  unfold ScatterDims.window
  rw [dif_neg]
  intro h
  have h' : (0 : Fin 2) ∈ (List.finRange 2).filter (fun a => a ∉ ([0] : List (Fin 2))) := h
  exact absurd h' (by decide)

/-- On the column axis the window coordinate of update `(e, k')` is its column `k'`. -/
theorem rowScatter_window1 (e : Fin M) (k' : Fin C) : (rowScatterDims N M C wf).window (ix2 e k') 1 = k'.val := by
  unfold ScatterDims.window
  rw [dif_pos (show (1 : Fin 2) ∈ (rowScatterDims N M C wf).sKept from
    (by decide : (1 : Fin 2) ∈ (List.finRange 2).filter (fun a => a ∉ ([0] : List (Fin 2)))))]
  rfl

/-- WHERE AN UPDATE LANDS: update `(e, k')` lands at operand element `(v, k)` exactly when its scatter index
    `idx[e, 0]`, read as a signed integer (not clamped), is `v` and its column is `k`. -/
theorem rowScatter_resultIdx_eq_some (idx : IVec ⟨2, ![M, 1]⟩ w) (e : Fin M) (k' k : Fin C) (v : Fin N) :
    (rowScatterDims N M C wf).resultIdx? (ix2 e k') idx = some (ix2 v k)
      ↔ (idx (ix2 e (0 : Fin 1))).toInt = (v.val : Int) ∧ k' = k := by
  have hv : (v.val : Int) < (N : Int) := by exact_mod_cast v.isLt
  have hk : (k'.val : Int) < (C : Int) := by exact_mod_cast k'.isLt
  unfold ScatterDims.resultIdx?
  constructor
  · intro h
    split at h
    · rename_i hin
      have hf := Option.some.inj h
      have h0 := congrArg Fin.val (congrFun hf 0)
      have h1 := congrArg Fin.val (congrFun hf 1)
      have hin0 := (hin 0).1
      simp only [rowScatter_start0, rowScatter_start1, rowScatter_window0, rowScatter_window1] at h0 h1 hin0
      refine ⟨?_, Fin.ext ?_⟩
      · change ((idx (ix2 e (0 : Fin 1))).toInt + ((0 : Nat) : Int)).toNat = v.val at h0
        omega
      · change ((0 : Int) + (k'.val : Int)).toNat = k.val at h1
        omega
    · exact absurd h (by simp)
  · rintro ⟨hi, rfl⟩
    have hin : ∀ a, 0 ≤ (rowScatterDims N M C wf).start (ix2 e k') idx a + (rowScatterDims N M C wf).window (ix2 e k') a ∧
        (rowScatterDims N M C wf).start (ix2 e k') idx a + (rowScatterDims N M C wf).window (ix2 e k') a
          < (⟨2, ![N, C]⟩ : Shape).size a := by
      intro a
      match a with
      | ⟨0, _⟩ =>
        show 0 ≤ (rowScatterDims N M C wf).start (ix2 e k') idx 0 + (rowScatterDims N M C wf).window (ix2 e k') 0 ∧
          (rowScatterDims N M C wf).start (ix2 e k') idx 0 + (rowScatterDims N M C wf).window (ix2 e k') 0 < (N : Int)
        rw [rowScatter_start0, rowScatter_window0, hi]
        constructor <;> omega
      | ⟨1, _⟩ =>
        show 0 ≤ (rowScatterDims N M C wf).start (ix2 e k') idx 1 + (rowScatterDims N M C wf).window (ix2 e k') 1 ∧
          (rowScatterDims N M C wf).start (ix2 e k') idx 1 + (rowScatterDims N M C wf).window (ix2 e k') 1 < (C : Int)
        rw [rowScatter_start1, rowScatter_window1]
        constructor <;> omega
    rw [dif_pos hin]
    congr 1
    funext a
    refine Fin.ext ?_
    match a with
    | ⟨0, _⟩ =>
      show ((rowScatterDims N M C wf).start (ix2 e k') idx 0 + (rowScatterDims N M C wf).window (ix2 e k') 0).toNat = v.val
      rw [rowScatter_start0, rowScatter_window0, hi]
      omega
    | ⟨1, _⟩ =>
      show ((rowScatterDims N M C wf).start (ix2 e k') idx 1 + (rowScatterDims N M C wf).window (ix2 e k') 1).toNat = k'.val
      rw [rowScatter_start1, rowScatter_window1]
      omega

end ScatterRows

section ScatterRowsSum
variable {N M C w : Nat} (wf : ScatterDims.WF ⟨2, ![N, C]⟩ ⟨2, ![M, 1]⟩ ⟨2, ![M, C]⟩ [1] [0] [0] 1)

/-- THE ROW SCATTER-ADD READ AT `(v, k)`, at the ideal values: the operand's element plus the sum, over the index
    entries `e` whose scatter index `idx[e, 0]` (read as a signed integer, not clamped) is `v`, of entry `k` of
    update row `e`. The updates landing at `(v, k)` are exactly the `(e, k)` with `idx[e, 0] = v`
    (`rowScatter_resultIdx_eq_some`), and `e ↦ (e, k)` re-indexes the sum. -/
theorem scatterAdd_row_apply (x : (⟨2, ![N, C]⟩ : Shape).Idx → EReal) (idx : IVec ⟨2, ![M, 1]⟩ w)
    (upd : (⟨2, ![M, C]⟩ : Shape).Idx → EReal) (v : Fin N) (k : Fin C) :
    Ideal.hostScatterAdd (rowScatterDims N M C wf) x idx upd (ix2 v k)
      = x (ix2 v k) + ∑ e ∈ Finset.univ.filter (fun e : Fin M => (idx (ix2 e (0 : Fin 1))).toInt = (v.val : Int)),
          upd (ix2 e k) := by
  unfold Ideal.hostScatterAdd
  congr 1
  refine Finset.sum_nbij' (fun j => (⟨(j 0).val, idx2_lt0 j⟩ : Fin M)) (fun e => ix2 e k) ?_ ?_ ?_ ?_ ?_
  · intro j hj
    obtain ⟨a, b, rfl⟩ : ∃ (a : Fin M) (b : Fin C), j = ix2 a b := ⟨_, _, eq_ix2 j⟩
    rw [Finset.mem_filter] at hj ⊢
    exact ⟨Finset.mem_univ _, ((rowScatter_resultIdx_eq_some wf idx a b k v).mp hj.2).1⟩
  · intro e he
    rw [Finset.mem_filter] at he ⊢
    exact ⟨Finset.mem_univ _, (rowScatter_resultIdx_eq_some wf idx e k k v).mpr ⟨he.2, rfl⟩⟩
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl
  · intro e _
    rfl
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl

/-- The same through the program's operation: `Host.scatterAdd` at the ideal values is `Ideal.hostScatterAdd`. -/
theorem host_scatterAdd_row_apply {φ : FTy} (x : FVec Ideal ⟨2, ![N, C]⟩ φ) (idx : IVec ⟨2, ![M, 1]⟩ w)
    (upd : FVec Ideal ⟨2, ![M, C]⟩ φ) (v : Fin N) (k : Fin C) :
    Host.scatterAdd (F := Ideal) (rowScatterDims N M C wf) x idx upd (ix2 v k)
      = x (ix2 v k) + ∑ e ∈ Finset.univ.filter (fun e : Fin M => (idx (ix2 e (0 : Fin 1))).toInt = (v.val : Int)),
          upd (ix2 e k) :=
  scatterAdd_row_apply wf x idx upd v k

end ScatterRowsSum

/-! ## Multiplying a finite sum of extended reals by a nonnegative real -/

section Distrib

/-- On the extended reals multiplication does not distribute over addition in general (`⊤ + ⊥ = ⊥`), but it does
    for a factor that is a NONNEGATIVE REAL: `(x + y) * δ = x * δ + y * δ`. Hence a finite sum of products times
    such a `δ` is the sum of the products with `δ` moved onto the second factor (multiplication itself is
    associative everywhere). -/
theorem sum_mul_mul_coe_of_nonneg {ι : Type*} (s : Finset ι) (a p : ι → EReal) {δ : ℝ} (hδ : 0 ≤ δ) :
    (∑ e ∈ s, a e * p e) * (δ : EReal) = ∑ e ∈ s, a e * (p e * (δ : EReal)) := by
  classical
  induction s using Finset.induction_on with
  | empty => simp
  | insert i s hi ih =>
    rw [Finset.sum_insert hi, Finset.sum_insert hi, ← ih, ← mul_assoc]
    exact EReal.right_distrib_of_nonneg_of_ne_top (EReal.coe_nonneg.mpr hδ) (EReal.coe_ne_top δ) _ _

end Distrib

/-! ## `stablehlo.gather` taking entries of a vector -/

section GatherEntries
variable {α : Type}

/-- The dimension numbers of "take entries": operand `[N]`, start indices `[M, 1]`, result `[M]`; no offset axis
    (the slice is one entry), the operand's one axis is collapsed and is the one the start index addresses. The
    conditions `wf` are decided on a program's literal shapes. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand's entry number `idx[e, 0]`, the index read as a signed integer and
    clamped into `[0, N - 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherEntries

/-! ## The accumulating float `stablehlo.scatter` adding entries to a vector -/

section ScatterEntries

/-- The dimension numbers of "add entries": operand `[N]`, scatter indices `[M, 1]`, updates `[M]`; no window axis
    (the window is one entry), the operand's one axis is the inserted window axis and is the one the scatter index
    addresses. The conditions `wf` are decided on a program's literal shapes. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The window of update `e` starts at the scatter index `idx[e, 0]`, read as a signed integer. -/
theorem vecScatter_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window0 (e : Fin M) : (vecScatterDims N M wf).window (ix1 e) 0 = 0 := by
  unfold ScatterDims.window
  rw [dif_neg]
  intro h
  have h' : (0 : Fin 1) ∈ (List.finRange 1).filter (fun a => a ∉ ([0] : List (Fin 1))) := h
  exact absurd h' (by decide)

/-- WHERE AN UPDATE LANDS: update `e` lands at operand entry `v` exactly when its scatter index `idx[e, 0]`, read
    as a signed integer (not clamped), is `v`. -/
theorem vecScatter_resultIdx_eq_some (idx : IVec ⟨2, ![M, 1]⟩ w) (e : Fin M) (v : Fin N) :
    (vecScatterDims N M wf).resultIdx? (ix1 e) idx = some (ix1 v)
      ↔ (idx (ix2 e (0 : Fin 1))).toInt = (v.val : Int) := by
  have hv : (v.val : Int) < (N : Int) := by exact_mod_cast v.isLt
  unfold ScatterDims.resultIdx?
  constructor
  · intro h
    split at h
    · rename_i hin
      have hf := Option.some.inj h
      have h0 := congrArg Fin.val (congrFun hf 0)
      have hin0 := (hin 0).1
      simp only [vecScatter_start0, vecScatter_window0] at h0 hin0
      change ((idx (ix2 e (0 : Fin 1))).toInt + ((0 : Nat) : Int)).toNat = v.val at h0
      omega
    · exact absurd h (by simp)
  · intro hi
    have hin : ∀ a, 0 ≤ (vecScatterDims N M wf).start (ix1 e) idx a + (vecScatterDims N M wf).window (ix1 e) a ∧
        (vecScatterDims N M wf).start (ix1 e) idx a + (vecScatterDims N M wf).window (ix1 e) a
          < (⟨1, ![N]⟩ : Shape).size a := by
      intro a
      obtain rfl : a = 0 := Subsingleton.elim _ _
      show 0 ≤ (vecScatterDims N M wf).start (ix1 e) idx 0 + (vecScatterDims N M wf).window (ix1 e) 0 ∧
        (vecScatterDims N M wf).start (ix1 e) idx 0 + (vecScatterDims N M wf).window (ix1 e) 0 < (N : Int)
      rw [vecScatter_start0, vecScatter_window0, hi]
      constructor <;> omega
    rw [dif_pos hin]
    congr 1
    funext a
    obtain rfl : a = 0 := Subsingleton.elim _ _
    refine Fin.ext ?_
    show ((vecScatterDims N M wf).start (ix1 e) idx 0 + (vecScatterDims N M wf).window (ix1 e) 0).toNat = v.val
    rw [vecScatter_start0, vecScatter_window0, hi]
    omega

/-- THE ENTRY SCATTER-ADD READ AT `v`, at the ideal values: the operand's entry plus the sum of the updates `e`
    whose scatter index `idx[e, 0]` (read as a signed integer, not clamped) is `v`. -/
theorem scatterAdd_vec_apply (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e (0 : Fin 1))).toInt = (v.val : Int)),
          upd (ix1 e) := by
  unfold Ideal.hostScatterAdd
  congr 1
  refine Finset.sum_nbij' (fun j => (⟨(j 0).val, (j 0).isLt⟩ : Fin M)) (fun e => ix1 e) ?_ ?_ ?_ ?_ ?_
  · intro j hj
    obtain ⟨a, rfl⟩ : ∃ (a : Fin M), j = ix1 a := ⟨_, eq_ix1 j⟩
    rw [Finset.mem_filter] at hj ⊢
    exact ⟨Finset.mem_univ _, (vecScatter_resultIdx_eq_some wf idx a v).mp hj.2⟩
  · intro e he
    rw [Finset.mem_filter] at he ⊢
    exact ⟨Finset.mem_univ _, (vecScatter_resultIdx_eq_some wf idx e v).mpr he.2⟩
  · intro j _
    obtain ⟨a, rfl⟩ : ∃ (a : Fin M), j = ix1 a := ⟨_, eq_ix1 j⟩
    rfl
  · intro e _
    rfl
  · intro j _
    obtain ⟨a, rfl⟩ : ∃ (a : Fin M), j = ix1 a := ⟨_, eq_ix1 j⟩
    rfl

/-- The same through the program's operation: `Host.scatterAdd` at the ideal values is `Ideal.hostScatterAdd`. -/
theorem host_scatterAdd_vec_apply {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e ∈ Finset.univ.filter (fun e : Fin M => (idx (ix2 e (0 : Fin 1))).toInt = (v.val : Int)),
          upd (ix1 e) :=
  scatterAdd_vec_apply wf x idx upd v

end ScatterEntries

end Idealize.ShloMosaic.RowOps

end
-- ==== Proof.Aggregate.lean ====
/-
  One round of message passing, read at one entry. With `h` an N × C matrix of node features, `src` and `dst` two
  integer vectors of M edge endpoints and `nrm` a vector of M edge weights, the programs compute

      scatter-add (zeros N × C) at rows dst of (gather rows of h at src) * nrm

  where the weight vector is first made a column and then repeated along the C columns. Entry `(v, k)` of the result
  is the sum, over the edges `e` whose destination word is `v`, of `h (src e, k) · nrm e` — the source word read as a
  signed integer and clamped into the rows, the destination word read as a signed integer and not clamped (an edge
  whose destination is outside the rows adds nothing). The column `k` passes through untouched, which is why the
  same statement serves a matrix of 128 columns and one of 64. The zero matrix contributes the real number 0.
-/
import proofs.«152899_j68436008894840_1_alg».proof.Proof.LibRowGatherScatter
import Idealize.ShloMosaic.Lib.Pipeline.Value

noncomputable section

open scoped BigOperators

namespace Idealize.ShloMosaic.RowOps

open Idealize.ShloMosaic Idealize.ShloMosaic.ValueIdx

section Columns
variable {α : Type} {M C : Nat}

/-- A vector made a column, read at row `e`: entry `e` of the vector. -/
theorem column_apply (b : (⟨1, ![M]⟩ : Shape).BroadcastsInDim ⟨2, ![M, 1]⟩ ![0]) (x : (⟨1, ![M]⟩ : Shape).Idx → α)
    (e : Fin M) (z : Fin 1) :
    broadcastInDim ⟨2, ![M, 1]⟩ ![0] b x (ix2 e z) = x (ix1 e) := by
  refine broadcastInDim_apply ![0] b x (ix2 e z) (ix1 e) fun a => ?_
  obtain rfl : a = 0 := Subsingleton.elim _ _
  show e.val = if M = 1 then 0 else e.val
  split_ifs with h
  · have := e.isLt; omega
  · rfl

/-- A column repeated along `C` columns, read at `(e, k)`: the column's entry at row `e`. -/
theorem repeat_apply (b : (⟨2, ![M, 1]⟩ : Shape).BroadcastsInDim ⟨2, ![M, C]⟩ ![0, 1]) (x : (⟨2, ![M, 1]⟩ : Shape).Idx → α)
    (e : Fin M) (k : Fin C) :
    broadcastInDim ⟨2, ![M, C]⟩ ![0, 1] b x (ix2 e k) = x (ix2 e (0 : Fin 1)) := by
  refine broadcastInDim_apply ![0, 1] b x (ix2 e k) (ix2 e (0 : Fin 1)) fun a => ?_
  match a with
  | ⟨0, _⟩ =>
    show e.val = if M = 1 then 0 else e.val
    split_ifs with h
    · have := e.isLt; omega
    · rfl
  | ⟨1, _⟩ => rfl

end Columns

/-- THE AGGREGATE AT `(v, k)`: the sum over the edges into `v` of the source row's entry `k` times the edge's weight. -/
theorem aggregate_apply {N M C : Nat} (hN : 0 < N)
    (dg : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hdg : dg = rowGatherDims N M C wfg)
    (ds : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hds : ds = rowScatterDims N M C wfs)
    (b0 : (⟨0, ![]⟩ : Shape).BroadcastsInDim ⟨2, ![N, C]⟩ ![])
    (b1 : (⟨1, ![M]⟩ : Shape).BroadcastsInDim ⟨2, ![M, 1]⟩ ![0])
    (b2 : (⟨2, ![M, 1]⟩ : Shape).BroadcastsInDim ⟨2, ![M, C]⟩ ![0, 1])
    (h : FVec Ideal ⟨2, ![N, C]⟩ .f32) (src dst : IVec ⟨1, ![M]⟩ 32) (nrm : FVec Ideal ⟨1, ![M]⟩ .f32) (v : Fin N) (k : Fin C) :
    Host.scatterAdd (F := Ideal) ds
        (broadcastInDim ⟨2, ![N, C]⟩ ![] b0 (constant (F := Ideal) ⟨0, ![]⟩ .f32 0x00000000#32))
        (broadcastInDim ⟨2, ![M, 1]⟩ ![0] b1 dst)
        (mulf (Host.gather dg h (broadcastInDim ⟨2, ![M, 1]⟩ ![0] b1 src))
          (broadcastInDim ⟨2, ![M, C]⟩ ![0, 1] b2 (broadcastInDim ⟨2, ![M, 1]⟩ ![0] b1 nrm))) (ix2 v k)
      = ∑ e ∈ Finset.univ.filter (fun e : Fin M => (dst (ix1 e)).toInt = (v.val : Int)),
          h (ix2 ⟨min (src (ix1 e)).toInt.toNat (N - 1), by omega⟩ k) * nrm (ix1 e) := by
  subst hdg hds
  rw [host_scatterAdd_row_apply wfs]
  have hz : broadcastInDim ⟨2, ![N, C]⟩ ![] b0 (constant (F := Ideal) ⟨0, ![]⟩ .f32 0x00000000#32) (ix2 v k) = (0 : EReal) := by
    show Ideal.ofBits .f32 0x00000000#32 = 0
    exact Ideal.ofBits_zero_f32
  rw [hz, zero_add]
  refine Finset.sum_congr (Finset.filter_congr fun e _ => by rw [column_apply]) fun e _ => ?_
  show Host.gather (rowGatherDims N M C wfg) h (broadcastInDim ⟨2, ![M, 1]⟩ ![0] b1 src) (ix2 e k)
      * broadcastInDim ⟨2, ![M, C]⟩ ![0, 1] b2 (broadcastInDim ⟨2, ![M, 1]⟩ ![0] b1 nrm) (ix2 e k) = _
  rw [gather_row_apply hN wfg, repeat_apply]
  have hs : broadcastInDim ⟨2, ![M, 1]⟩ ![0] b1 src (ix2 e (0 : Fin 1)) = src (ix1 e) := column_apply b1 src e 0
  have hn : broadcastInDim ⟨2, ![M, 1]⟩ ![0] b1 nrm (ix2 e (0 : Fin 1)) = nrm (ix1 e) := column_apply b1 nrm e 0
  have hidx : (⟨min (broadcastInDim ⟨2, ![M, 1]⟩ ![0] b1 src (ix2 e (0 : Fin 1))).toInt.toNat (N - 1), by omega⟩ : Fin N)
      = ⟨min (src (ix1 e)).toInt.toNat (N - 1), by omega⟩ := Fin.ext (congrArg (fun b : BitVec 32 => min b.toInt.toNat (N - 1)) hs)
  rw [hn, hidx]

end Idealize.ShloMosaic.RowOps

end
-- ==== Proof.Bridge.lean ====
/-
  The two programs compute the same two arrays. Both end in one round of message passing followed by a bias: with
  `H = max (A₁ + b₁) 0` the hidden activations (`A₁` the first aggregate, the same array in both programs),

    reference:  mu (v, j)     = (∑ over edges e into v of (H · Wmu) (src e, j) · nrm e) + bmu j
                logvar (v, j) = (∑ over edges e into v of (H · Wlv) (src e, j) · nrm e) + blv j
    kernel:     mu (v, j)     = (∑ over edges e into v of (H · [Wmu | Wlv]) (src e, j) · nrm e) + [bmu, blv] j
                logvar (v, j) = the same at column 64 + j.

  A round of message passing acts on each column by itself, column `j < 64` of `[Wmu | Wlv]` is column `j` of `Wmu` and
  column `64 + j` is column `j` of `Wlv`, and likewise for the joined bias: so the sums agree term by term. No law of
  arithmetic is used beyond reading each side at an entry; in particular nothing here needs the inputs to be finite.
-/
import proofs.«152899_j68436008894840_1_alg».proof.Proof.KernelFold
import proofs.«152899_j68436008894840_1_alg».proof.Proof.Aggregate

set_option maxRecDepth 16384

noncomputable section

open scoped BigOperators
open Idealize.ShloMosaic Idealize.ShloMosaic.ValueIdx Idealize.ShloMosaic.RowOps

namespace Cert.Bridge

/-! ## The kernel program's side -/

section KernelSide
open Cert.KernelIdeal Cert.KernelIdeal.Facts₀ Cert.KernelIdeal.Fold Cert.KernelIdeal.BiasSplit Cert.KernelIdeal.HiddenProduct

/-- A round of message passing on 128 columns, read at an entry. -/
theorem aggregate128_apply (h : S100000x128.Idx → EReal) (src dst : IVec S1700000 32) (nrm : S1700000.Idx → EReal)
    (v : Fin 100000) (k : Fin 128) :
    aggregate128 h src dst nrm (ix2 v k)
      = ∑ e ∈ Finset.univ.filter (fun e : Fin 1700000 => (dst (ix1 e)).toInt = (v.val : Int)),
          h (ix2 ⟨min (wrapped src (ix1 e)).toInt.toNat (100000 - 1), by omega⟩ k) * nrm (ix1 e) := by
  unfold aggregate128
  exact aggregate_apply (N := 100000) (M := 1700000) (C := 128) (by decide) _ _ rfl _ _ rfl _ _ _ h (wrapped src) dst nrm v k

/-- The joined bias row at column `j < 64` is the first bias at `j`. -/
theorem joinedBias_low (b6 b8 : S64.Idx → EReal) (z : S1x128.Idx) (j : Fin 64) (hz : (z 1).val = j.val) :
    joinedBias b6 b8 z = b6 (ix1 j) := by
  unfold joinedBias
  refine (shapeCast_addUnit_apply ![128] _ shapeCasts_S128_S1x128 z).trans ?_
  refine concatenate_pair_apply_left (t := S128) (0 : Fin 1) b6 b8 concatenates_S64_S64_S128_d0 _ rfl (ix1 j) fun b => ?_
  obtain rfl : b = 0 := Subsingleton.elim _ _
  exact hz.symm

/-- The joined bias row at column `64 + j` is the second bias at `j`. -/
theorem joinedBias_high (b6 b8 : S64.Idx → EReal) (z : S1x128.Idx) (j : Fin 64) (hz : (z 1).val = 64 + j.val) :
    joinedBias b6 b8 z = b8 (ix1 j) := by
  unfold joinedBias
  refine (shapeCast_addUnit_apply ![128] _ shapeCasts_S128_S1x128 z).trans ?_
  refine concatenate_pair_apply_right (t := S128) (0 : Fin 1) b6 b8 concatenates_S64_S64_S128_d0 _ rfl rfl (ix1 j)
    (fun b hb => absurd (Subsingleton.elim _ _) hb) ?_
  show j.val + 64 = (z 1).val
  omega

/-- The joined weight matrix at column `j < 64` is the first head's matrix at column `j`. -/
theorem joinedWeights_low (w5 w7 : S128x64.Idx → EReal) (z : S128x128.Idx) (k : Fin 128) (j : Fin 64)
    (h0 : (z 0).val = k.val) (h1 : (z 1).val = j.val) :
    joinedWeights w5 w7 z = w5 (ix2 k j) := by
  unfold joinedWeights
  refine concatenate_pair_apply_left (t := S128x128) (1 : Fin 2) w5 w7 concatenates_S128x64_S128x64_S128x128_d1 z rfl (ix2 k j) fun b => ?_
  match b with
  | ⟨0, _⟩ => exact h0.symm
  | ⟨1, _⟩ => exact h1.symm

/-- The joined weight matrix at column `64 + j` is the second head's matrix at column `j`. -/
theorem joinedWeights_high (w5 w7 : S128x64.Idx → EReal) (z : S128x128.Idx) (k : Fin 128) (j : Fin 64)
    (h0 : (z 0).val = k.val) (h1 : (z 1).val = 64 + j.val) :
    joinedWeights w5 w7 z = w7 (ix2 k j) := by
  unfold joinedWeights
  refine concatenate_pair_apply_right (t := S128x128) (1 : Fin 2) w5 w7 concatenates_S128x64_S128x64_S128x128_d1 z rfl rfl (ix2 k j)
    (fun b hb => ?_) ?_
  · match b with
    | ⟨0, _⟩ => exact h0.symm
    | ⟨1, _⟩ => exact absurd rfl hb
  · show j.val + 64 = (z 1).val
    omega

/-- The bias as a row, at column `k`: the bias at `k`. -/
theorem biasRow_apply (b : S128.Idx → EReal) (k : Fin 128) : biasRow b (biasAt k) = b (ix1 k) := by
  unfold biasRow
  refine (shapeCast_addUnit_apply ![128] _ shapeCasts_S128_S1x128 (biasAt k)).trans ?_
  congr 1
  funext a
  obtain rfl : a = 0 := Subsingleton.elim _ _
  rfl

end KernelSide

/-! ## The reference's side -/

section ReferenceSide
open Cert.ReferenceIdeal Cert.ReferenceIdeal.Read

/-- The first head's round of message passing without its bias, read at an entry. -/
theorem mu_sum (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal))
    (v : Fin 100000) (j : Fin 64) :
    val_main_v71 (F := Ideal) x0 x1 x2 x3 x4 x5 (ix2 v j)
      = ∑ e ∈ Finset.univ.filter (fun e : Fin 1700000 => (val_main_v7 (F := Ideal) x1 (ix1 e)).toInt = (v.val : Int)),
          val_main_v58 (F := Ideal) x0 x1 x2 x3 x4 x5 (ix2 ⟨min (val_main_v63 (F := Ideal) x1 (ix1 e)).toInt.toNat (100000 - 1), by omega⟩ j)
            * val_main_v39 (F := Ideal) x1 x2 (ix1 e) := by
  unfold val_main_v71 val_main_v70 val_main_v69 val_main_cst_14 val_main_v68 val_main_v67 val_main_v66 val_main_v65 val_main_v64
  exact aggregate_apply (N := 100000) (M := 1700000) (C := 64) (by decide) _ _ rfl _ _ rfl _ _ _
    (val_main_v58 (F := Ideal) x0 x1 x2 x3 x4 x5) (val_main_v63 (F := Ideal) x1) (val_main_v7 (F := Ideal) x1)
    (val_main_v39 (F := Ideal) x1 x2) v j

/-- The second head's round of message passing without its bias, read at an entry. -/
theorem logvar_sum (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x7 : (⟨Cert.ReferenceIdeal.S128x64, .f32⟩ : BufTy).Contents (Elt Ideal))
    (v : Fin 100000) (j : Fin 64) :
    val_main_v88 (F := Ideal) x0 x1 x2 x3 x4 x7 (ix2 v j)
      = ∑ e ∈ Finset.univ.filter (fun e : Fin 1700000 => (val_main_v7 (F := Ideal) x1 (ix1 e)).toInt = (v.val : Int)),
          val_main_v75 (F := Ideal) x0 x1 x2 x3 x4 x7 (ix2 ⟨min (val_main_v63 (F := Ideal) x1 (ix1 e)).toInt.toNat (100000 - 1), by omega⟩ j)
            * val_main_v39 (F := Ideal) x1 x2 (ix1 e) := by
  unfold val_main_v88 val_main_v87 val_main_v86 val_main_cst_17 val_main_v85 val_main_v84 val_main_v83 val_main_v82 val_main_v81
  exact aggregate_apply (N := 100000) (M := 1700000) (C := 64) (by decide) _ _ rfl _ _ rfl _ _ _
    (val_main_v75 (F := Ideal) x0 x1 x2 x3 x4 x7) (val_main_v80 (F := Ideal) x1) (val_main_v7 (F := Ideal) x1)
    (val_main_v39 (F := Ideal) x1 x2) v j

/-- The two heads wrap their source words by the same operations. -/
theorem wrap_same (x1 : (⟨Cert.ReferenceIdeal.S2x1600000, .i32⟩ : BufTy).Contents (Elt Ideal)) :
    val_main_v80 (F := Ideal) x1 = val_main_v63 (F := Ideal) x1 := rfl

/-- The first head, read at an entry: its round of message passing plus its bias. -/
theorem mu_apply (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal))
    (v : Fin 100000) (j : Fin 64) :
    val_main_v74 (F := Ideal) x0 x1 x2 x3 x4 x5 x6 (ix2 v j)
      = (∑ e ∈ Finset.univ.filter (fun e : Fin 1700000 => (val_main_v7 (F := Ideal) x1 (ix1 e)).toInt = (v.val : Int)),
          val_main_v58 (F := Ideal) x0 x1 x2 x3 x4 x5 (ix2 ⟨min (val_main_v63 (F := Ideal) x1 (ix1 e)).toInt.toNat (100000 - 1), by omega⟩ j)
            * val_main_v39 (F := Ideal) x1 x2 (ix1 e)) + x6 (ix1 j) := by
  have hb : (idx_main_v72 (idx_main_v73 (ix2 v j)) : S64.Idx) = ix1 j := by
    funext a
    match a with
    | ⟨0, _⟩ => rfl
  rw [val_main_v74_apply, val_main_v73_apply, val_main_v72_apply, hb, mu_sum, Ideal.addf_def]

/-- The second head, read at an entry: its round of message passing plus its bias. -/
theorem logvar_apply (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))
    (v : Fin 100000) (j : Fin 64) :
    val_main_v91 (F := Ideal) x0 x1 x2 x3 x4 x7 x8 (ix2 v j)
      = (∑ e ∈ Finset.univ.filter (fun e : Fin 1700000 => (val_main_v7 (F := Ideal) x1 (ix1 e)).toInt = (v.val : Int)),
          val_main_v75 (F := Ideal) x0 x1 x2 x3 x4 x7 (ix2 ⟨min (val_main_v63 (F := Ideal) x1 (ix1 e)).toInt.toNat (100000 - 1), by omega⟩ j)
            * val_main_v39 (F := Ideal) x1 x2 (ix1 e)) + x8 (ix1 j) := by
  have hb : (idx_main_v89 (idx_main_v90 (ix2 v j)) : S64.Idx) = ix1 j := by
    funext a
    match a with
    | ⟨0, _⟩ => rfl
  rw [val_main_v91_apply, val_main_v90_apply, val_main_v89_apply, hb, logvar_sum, Ideal.addf_def]

end ReferenceSide

/-! ## Side by side -/

section Together
open Cert.ReferenceIdeal.Read
open Cert.KernelIdeal.Fold Cert.KernelIdeal.BiasSplit Cert.KernelIdeal.HiddenProduct

variable (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal))
  (x5 x7 : (⟨Cert.ReferenceIdeal.S128x64, .f32⟩ : BufTy).Contents (Elt Ideal))
  (x6 x8 : (⟨Cert.ReferenceIdeal.S64, .f32⟩ : BufTy).Contents (Elt Ideal))

/-- The kernel's hidden activations entry by entry are the reference's. -/
theorem activated_eq (r : Fin 100000) (k : Fin 128) (z : Cert.KernelIdeal.S100000x128.Idx) (hz0 : (z 0).val = r.val) (hz1 : (z 1).val = k.val) :
    max ((val_main_v53 (F := Ideal) x0 x1 x2 x3 z : EReal) + biasRow x4 (biasAt k)) (Ideal.ofBits .f32 0x00000000#32)
      = val_main_v57 (F := Ideal) x0 x1 x2 x3 x4 z := by
  have hi : idx_main_v54 (idx_main_v55 z) = (ix1 k : Cert.ReferenceIdeal.S128.Idx) := by
    funext a
    match a with
    | ⟨0, _⟩ => exact Fin.ext hz1
  rw [val_main_v57_apply, val_main_v56_apply, val_main_v55_apply, val_main_v54_apply, val_main_call1_v0_apply, hi, biasRow_apply]
  generalize val_main_v53 (F := Ideal) x0 x1 x2 x3 z = a
  rfl

/-- Column `j < 64` of the kernel's hidden product is the first head's product. -/
theorem hidden_low (r : Fin 100000) (j : Fin 64) :
    hiddenProduct (val_main_v53 (F := Ideal) x0 x1 x2 x3) (biasRow x4) (joinedWeights x5 x7)
        (ix2 r (⟨j.val, by have := j.isLt; omega⟩ : Fin 128))
      = val_main_v58 (F := Ideal) x0 x1 x2 x3 x4 x5 (ix2 r j) := by
  unfold hiddenProduct
  rw [val_main_v58_apply]
  refine Finset.sum_congr rfl fun k _ => ?_
  rw [activated_eq x0 x1 x2 x3 x4 r k (rowOf (ix2 r (⟨j.val, by have := j.isLt; omega⟩ : Fin 128)) k) rfl rfl,
    joinedWeights_low x5 x7 (colOf (ix2 r (⟨j.val, by have := j.isLt; omega⟩ : Fin 128)) k) k j rfl rfl]
  have e1 : rowOf (ix2 r (⟨j.val, by have := j.isLt; omega⟩ : Fin 128)) k = lidx_main_v58 (ix2 r j) k := by
    funext a
    match a with
    | ⟨0, _⟩ => rfl
    | ⟨1, _⟩ => rfl
  have e2 : (ix2 k j : Cert.ReferenceIdeal.S128x64.Idx) = ridx_main_v58 (ix2 r j) k := by
    funext a
    match a with
    | ⟨0, _⟩ => rfl
    | ⟨1, _⟩ => rfl
  rw [e1, e2]
  try (generalize val_main_v57 (F := Ideal) x0 x1 x2 x3 x4 (lidx_main_v58 (ix2 r j) k) = a; rfl)

/-- Column `64 + j` of the kernel's hidden product is the second head's product. -/
theorem hidden_high (r : Fin 100000) (j : Fin 64) :
    hiddenProduct (val_main_v53 (F := Ideal) x0 x1 x2 x3) (biasRow x4) (joinedWeights x5 x7)
        (ix2 r (⟨64 + j.val, by have := j.isLt; omega⟩ : Fin 128))
      = val_main_v75 (F := Ideal) x0 x1 x2 x3 x4 x7 (ix2 r j) := by
  unfold hiddenProduct
  rw [val_main_v75_apply]
  refine Finset.sum_congr rfl fun k _ => ?_
  rw [activated_eq x0 x1 x2 x3 x4 r k (rowOf (ix2 r (⟨64 + j.val, by have := j.isLt; omega⟩ : Fin 128)) k) rfl rfl,
    joinedWeights_high x5 x7 (colOf (ix2 r (⟨64 + j.val, by have := j.isLt; omega⟩ : Fin 128)) k) k j rfl rfl]
  have e1 : rowOf (ix2 r (⟨64 + j.val, by have := j.isLt; omega⟩ : Fin 128)) k = lidx_main_v75 (ix2 r j) k := by
    funext a
    match a with
    | ⟨0, _⟩ => rfl
    | ⟨1, _⟩ => rfl
  have e2 : (ix2 k j : Cert.ReferenceIdeal.S128x64.Idx) = ridx_main_v75 (ix2 r j) k := by
    funext a
    match a with
    | ⟨0, _⟩ => rfl
    | ⟨1, _⟩ => rfl
  rw [e1, e2]
  try (generalize val_main_v57 (F := Ideal) x0 x1 x2 x3 x4 (lidx_main_v75 (ix2 r j) k) = a; rfl)

/-- A source word below zero counted from the end: the kernel's and the reference's operations are the same. -/
theorem wrapped_eq : wrapped (val_main_v3 (F := Ideal) x1) = val_main_v63 (F := Ideal) x1 := rfl

/-- THE FIRST RESULT: the kernel's left half is the reference's `mu`. -/
theorem low_eq :
    lowHalf (aggregate128 (hiddenProduct (val_main_v53 (F := Ideal) x0 x1 x2 x3) (biasRow x4) (joinedWeights x5 x7))
        (val_main_v3 (F := Ideal) x1) (val_main_v7 (F := Ideal) x1) (val_main_v39 (F := Ideal) x1 x2)) (joinedBias x6 x8)
      = val_main_v74 (F := Ideal) x0 x1 x2 x3 x4 x5 x6 := by
  funext i
  obtain ⟨v, j, rfl⟩ : ∃ (v : Fin 100000) (j : Fin 64), i = ix2 v j := ⟨i 0, i 1, eq_ix2 i⟩
  rw [mu_apply]
  unfold lowHalf
  have e1 : lowOf (ix2 v j) = ix2 v (⟨j.val, by have := j.isLt; omega⟩ : Fin 128) := by
    funext a
    match a with
    | ⟨0, _⟩ => rfl
    | ⟨1, _⟩ => rfl
  rw [e1, aggregate128_apply, joinedBias_low x6 x8 (biasLowOf (ix2 v j)) j rfl]
  refine congrArg (fun s : EReal => s + x6 (ix1 j)) (Finset.sum_congr rfl fun e _ => ?_)
  exact congrArg (fun t => t * val_main_v39 (F := Ideal) x1 x2 (ix1 e))
    (hidden_low x0 x1 x2 x3 x4 x5 x7 ⟨min (val_main_v63 (F := Ideal) x1 (ix1 e)).toInt.toNat (100000 - 1), by omega⟩ j)

/-- THE SECOND RESULT: the kernel's right half is the reference's `logvar`. -/
theorem high_eq :
    highHalf (aggregate128 (hiddenProduct (val_main_v53 (F := Ideal) x0 x1 x2 x3) (biasRow x4) (joinedWeights x5 x7))
        (val_main_v3 (F := Ideal) x1) (val_main_v7 (F := Ideal) x1) (val_main_v39 (F := Ideal) x1 x2)) (joinedBias x6 x8)
      = val_main_v91 (F := Ideal) x0 x1 x2 x3 x4 x7 x8 := by
  funext i
  obtain ⟨v, j, rfl⟩ : ∃ (v : Fin 100000) (j : Fin 64), i = ix2 v j := ⟨i 0, i 1, eq_ix2 i⟩
  rw [logvar_apply]
  unfold highHalf
  have e1 : highOf (ix2 v j) = ix2 v (⟨64 + j.val, by have := j.isLt; omega⟩ : Fin 128) := by
    funext a
    match a with
    | ⟨0, _⟩ => rfl
    | ⟨1, _⟩ => rfl
  rw [e1, aggregate128_apply, joinedBias_high x6 x8 (biasHighOf (ix2 v j)) j rfl]
  refine congrArg (fun s : EReal => s + x8 (ix1 j)) (Finset.sum_congr rfl fun e _ => ?_)
  exact congrArg (fun t => t * val_main_v39 (F := Ideal) x1 x2 (ix1 e))
    (hidden_high x0 x1 x2 x3 x4 x5 x7 ⟨min (val_main_v63 (F := Ideal) x1 (ix1 e)).toInt.toNat (100000 - 1), by omega⟩ j)

end Together

end Cert.Bridge

end
-- ==== Proof.lean ====
/-
  The kernel program and its reference compute the same two arrays (the means and the log-variances of a two-layer
  graph-convolution encoder), entry by entry as extended reals.

  The kernel program is three accelerator regions among stretches of host operations; the reference is host operations
  only. Both first build, from the edge list and the edge weights, the edge endpoints with one self-loop per node and
  the symmetrically normalised weights — by the same operations. The first region is the product of the node features
  with the first weight matrix, cut into row blocks; a round of message passing follows on the host, the same one in
  both programs. The second region adds the hidden bias, takes the maximum with zero and multiplies by the two head
  matrices joined side by side, where the reference multiplies by each head matrix separately; a second round of
  message passing follows on all 128 joined columns, where the reference passes messages on each head's 64 columns
  separately. The last region adds the two head biases joined end to end and splits the columns back into the two
  heads. Message passing, bias addition and the matrix product all act on each output column by itself, so the joined
  computation restricted to a head's columns is that head's computation: the results agree entry by entry, with no use
  of finiteness. The rewriting pass changed nothing in the kernel, so there is nothing to preserve.

  The three frame claims are the generated frame certificates (the reference's is its generated run with the results
  dropped).
-/
import proofs.«152899_j68436008894840_1_alg».proof.Defs
import proofs.«152899_j68436008894840_1_alg».proof.Proof.Gen.Kernel
import proofs.«152899_j68436008894840_1_alg».proof.Proof.Gen.Kernel.Frame
import proofs.«152899_j68436008894840_1_alg».proof.Proof.Gen.KernelIdeal
import proofs.«152899_j68436008894840_1_alg».proof.Proof.Gen.KernelIdeal.Frame
import proofs.«152899_j68436008894840_1_alg».proof.Proof.Gen.ReferenceIdeal
import proofs.«152899_j68436008894840_1_alg».proof.Proof.Gen.Pre_finite_inputs
import proofs.«152899_j68436008894840_1_alg».proof.Proof.Gen.ReferenceIdeal.Read
import proofs.«152899_j68436008894840_1_alg».proof.Proof.KernelRun
import proofs.«152899_j68436008894840_1_alg».proof.Proof.KernelFold
import proofs.«152899_j68436008894840_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Run from memories that agree on the nine arguments, both programs end with the same two result arrays: the
    kernel's are what its last boundary's contents hold, the reference's are its composed terms, and the two are
    equal as functions of the arguments. -/
theorem algebraic : Cert.algebraic_KernelIdeal_ReferenceIdeal := by
  intro m ρ m' ρ' _ hagree
  refine ⟨_, _, Cert.KernelIdeal.Run.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v74_eq, a0, a1, a2, a3, a4, a5, a6, Cert.KernelIdeal.Fold.result_low]
    exact (Cert.Bridge.low_eq _ _ _ _ _ _ _ _ _).symm
  · obtain ⟨a0, a1, a2, a3, a4, a5, a6, a7, a8⟩ := hagree c
    rw [Cert.ReferenceIdeal.Read.val_main_v91_eq, a0, a1, a2, a3, a4, a7, a8, Cert.KernelIdeal.Fold.result_high]
    exact (Cert.Bridge.high_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
